-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S96x16x512 : Shape := ⟨3, ![96, 16, 512]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S96x16x512 : S_.BroadcastsInDim S96x16x512 (![] : Fin 0 → Fin S96x16x512.rank)
  reducesTo_S96x16x512_S_d0_1_2 : S96x16x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x512 .f32) (main_arg5 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S96x16x512 .f32) (main_arg1 : FVec F S96x16x512 .f32) (main_arg2 : FVec F S512x1024 .f32) (main_arg3 : FVec F S512 .f32) (main_arg4 : FVec F S128x512 .f32) (main_arg5 : FVec F S128 .f32) : IVec S_ 1 :=
  let main_v0 : FVec F S96x16x512 .f32 := Host.absf main_arg0
  let main_cst : FVec F S_ .f32 := constant S_ .f32 0x7F800000#32
  let main_v1 : FVec F S96x16x512 .f32 := broadcastInDim S96x16x512 ![] bcast_S_S96x16x512 main_cst
  let main_v2 : IVec S96x16x512 1 := cmpf .olt main_v0 main_v1
  let main_c : IVec S_ 1 := constantI S_ 1 1#1
  let main_v3 : IVec S_ 1 := (fun x v => Host.reduce IntOp.andi x v reducesTo_S96x16x512_S_d0_1_2 h_S_) main_v2 main_c
  let main_v4 : FVec F S96x16x512 .f32 := Host.absf main_arg1
  let main_cst_0 : FVec F S_ .f32 := constant S_ .f32 0x7F800000#32
  let main_v5 : FVec F S96x16x512 .f32 := broadcastInDim S96x16x512 ![] bcast_S_S96x16x512 main_cst_0
  let main_v6 : IVec S96x16x512 1 := cmpf .olt main_v4 main_v5
  let main_c_1 : IVec S_ 1 := constantI S_ 1 1#1
  let main_v7 : IVec S_ 1 := (fun x v => Host.reduce IntOp.andi x v reducesTo_S96x16x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S96x16x512 : Shape := ⟨3, ![96, 16, 512]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S512x512 : Shape := ⟨2, ![512, 512]⟩
abbrev S1536x512 : Shape := ⟨2, ![1536, 512]⟩
abbrev S16x96x512 : Shape := ⟨3, ![16, 96, 512]⟩
abbrev S3072x512 : Shape := ⟨2, ![3072, 512]⟩
abbrev S1x512x512 : Shape := ⟨3, ![1, 512, 512]⟩
abbrev S2x512x512 : Shape := ⟨3, ![2, 512, 512]⟩
abbrev S256x512 : Shape := ⟨2, ![256, 512]⟩
abbrev S1x1x512 : Shape := ⟨3, ![1, 1, 512]⟩
abbrev S96x16x96x129 : Shape := ⟨4, ![96, 16, 96, 129]⟩
abbrev S16x16x512 : Shape := ⟨3, ![16, 16, 512]⟩
abbrev S16x16x16x129 : Shape := ⟨4, ![16, 16, 16, 129]⟩
abbrev S16x16x1x512 : Shape := ⟨4, ![16, 16, 1, 512]⟩
abbrev S1x16x16x512 : Shape := ⟨4, ![1, 16, 16, 512]⟩
abbrev S16x16x16x512 : Shape := ⟨4, ![16, 16, 16, 512]⟩
abbrev S4096x512 : Shape := ⟨2, ![4096, 512]⟩
abbrev S512x128 : Shape := ⟨2, ![512, 128]⟩
abbrev S4096x128 : Shape := ⟨2, ![4096, 128]⟩
abbrev S1x128 : Shape := ⟨2, ![1, 128]⟩
abbrev S16x16x16x128 : Shape := ⟨4, ![16, 16, 16, 128]⟩
abbrev S16x16x16 : Shape := ⟨3, ![16, 16, 16]⟩
abbrev S16x16x16x1 : Shape := ⟨4, ![16, 16, 16, 1]⟩

abbrev nBuf : Space → Nat
  | .hbm => 24
  | .vmem => 14
  | .smem => 0
  | _ => 0

abbrev bufTy : (tb : Table) → Fin (tcTables nBuf tb) → BufTy
  | .hbm, ⟨0, _⟩ => ⟨S96x16x512, .f32⟩
  | .hbm, ⟨1, _⟩ => ⟨S96x16x512, .f32⟩
  | .hbm, ⟨2, _⟩ => ⟨S512x1024, .f32⟩
  | .hbm, ⟨3, _⟩ => ⟨S512, .f32⟩
  | .hbm, ⟨4, _⟩ => ⟨S128x512, .f32⟩
  | .hbm, ⟨5, _⟩ => ⟨S128, .f32⟩
  | .hbm, ⟨6, _⟩ => ⟨S512x512, .f32⟩
  | .hbm, ⟨7, _⟩ => ⟨S512x512, .f32⟩
  | .hbm, ⟨8, _⟩ => ⟨S1536x512, .f32⟩
  | .hbm, ⟨9, _⟩ => ⟨S16x96x512, .f32⟩
  | .hbm, ⟨10, _⟩ => ⟨S1536x512, .f32⟩
  | .hbm, ⟨11, _⟩ => ⟨S3072x512, .f32⟩
  | .hbm, ⟨12, _⟩ => ⟨S1x512x512, .f32⟩
  | .hbm, ⟨13, _⟩ => ⟨S1x512x512, .f32⟩
  | .hbm, ⟨14, _⟩ => ⟨S2x512x512, .f32⟩
  | .hbm, ⟨15, _⟩ => ⟨S3072x512, .f32⟩
  | .hbm, ⟨16, _⟩ => ⟨S1536x512, .f32⟩
  | .hbm, ⟨17, _⟩ => ⟨S96x16x512, .f32⟩
  | .hbm, ⟨18, _⟩ => ⟨S1x1x512, .f32⟩
  | .hbm, ⟨19, _⟩ => ⟨S96x16x512, .f32⟩
  | .hbm, ⟨20, _⟩ => ⟨S96x16x512, .f32⟩
  | .hbm, ⟨21, _⟩ => ⟨S1536x512, .f32⟩
  | .hbm, ⟨22, _⟩ => ⟨S16x96x512, .f32⟩
  | .hbm, ⟨23, _⟩ => ⟨S96x16x96x129, .f32⟩
  | .local _ .vmem, ⟨0, _⟩ => ⟨S256x512, .f32⟩
  | .local _ .vmem, ⟨1, _⟩ => ⟨S256x512, .f32⟩
  | .local _ .vmem, ⟨2, _⟩ => ⟨S1x512x512, .f32⟩
  | .local _ .vmem, ⟨3, _⟩ => ⟨S1x512x512, .f32⟩
  | .local _ .vmem, ⟨4, _⟩ => ⟨S256x512, .f32⟩
  | .local _ .vmem, ⟨5, _⟩ => ⟨S256x512, .f32⟩
  | .local _ .vmem, ⟨6, _⟩ => ⟨S16x16x512, .f32⟩
  | .local _ .vmem, ⟨7, _⟩ => ⟨S16x16x512, .f32⟩
  | .local _ .vmem, ⟨8, _⟩ => ⟨S16x16x512, .f32⟩
  | .local _ .vmem, ⟨9, _⟩ => ⟨S16x16x512, .f32⟩
  | .local _ .vmem, ⟨10, _⟩ => ⟨S128x512, .f32⟩
  | .local _ .vmem, ⟨11, _⟩ => ⟨S128, .f32⟩
  | .local _ .vmem, ⟨12, _⟩ => ⟨S16x16x16x129, .f32⟩
  | .local _ .vmem, ⟨13, _⟩ => ⟨S16x16x16x129, .f32⟩
  | _, _ => ⟨S96x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![6, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S16x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x16x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S16x16x16x129 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  slices_S512x1024_S512x512_0_0 : S512x1024.Slices ![0, 0] S512x512
  slices_S512x1024_S512x512_0_512 : S512x1024.Slices ![0, 512] S512x512
  shapeCasts_S96x16x512_S1536x512 : S96x16x512.ShapeCasts S1536x512
  transposes_S96x16x512_S16x96x512_1_0_2 : S96x16x512.Transposes [1, 0, 2] S16x96x512
  shapeCasts_S16x96x512_S1536x512 : S16x96x512.ShapeCasts S1536x512
  concatenates_S1536x512_S1536x512_S3072x512_d0 : Shape.Concatenates [S1536x512, S1536x512] S3072x512 0
  bcast_S512x512_S1x512x512_1_2 : S512x512.BroadcastsInDim S1x512x512 (![1, 2] : Fin 2 → Fin S1x512x512.rank)
  concatenates_S1x512x512_S1x512x512_S2x512x512_d0 : Shape.Concatenates [S1x512x512, S1x512x512] S2x512x512 0
  inb_S256x512_S256x512_0_0 : ∀ a, (![0, 0] : Fin 2 → Nat) a + S256x512.size a ≤ S256x512.size a
  h_S256x512 : 0 < S256x512.numel
  shapeCasts_S256x512_S256x512 : S256x512.ShapeCasts S256x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  slices_S3072x512_S1536x512_0_0 : S3072x512.Slices ![0, 0] S1536x512
  shapeCasts_S1536x512_S96x16x512 : S1536x512.ShapeCasts S96x16x512
  bcast_S512_S1x1x512_2 : S512.BroadcastsInDim S1x1x512 (![2] : Fin 1 → Fin S1x1x512.rank)
  bcast_S1x1x512_S96x16x512_0_1_2 : S1x1x512.BroadcastsInDim S96x16x512 (![0, 1, 2] : Fin 3 → Fin S96x16x512.rank)
  slices_S3072x512_S1536x512_1536_0 : S3072x512.Slices ![1536, 0] S1536x512
  shapeCasts_S1536x512_S16x96x512 : S1536x512.ShapeCasts S16x96x512
  inb_S16x16x512_S16x16x512_0_0_0 : ∀ a, (![0, 0, 0] : Fin 3 → Nat) a + S16x16x512.size a ≤ S16x16x512.size a
  h_S16x16x512 : 0 < S16x16x512.numel
  shapeCasts_S16x16x512_S16x16x512 : S16x16x512.ShapeCasts S16x16x512
  shapeCasts_S16x16x512_S16x16x1x512 : S16x16x512.ShapeCasts S16x16x1x512
  shapeCasts_S16x16x512_S1x16x16x512 : S16x16x512.ShapeCasts S1x16x16x512
  broadcasts_S16x16x1x512_S16x16x16x512 : S16x16x1x512.Broadcasts S16x16x16x512
  broadcasts_S1x16x16x512_S16x16x16x512 : S1x16x16x512.Broadcasts S16x16x16x512
  shapeCasts_S16x16x16x512_S4096x512 : S16x16x16x512.ShapeCasts S4096x512
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S4096x128_S16x16x16x128 : S4096x128.ShapeCasts S16x16x16x128
  reduces_S16x16x16x128_S16x16x16 : S16x16x16x128.Reduces [3] S16x16x16
  shapeCasts_S16x16x16_S16x16x16x1 : S16x16x16.ShapeCasts S16x16x16x1
  broadcasts_S16x16x16x1_S16x16x16x128 : S16x16x16x1.Broadcasts S16x16x16x128
  inb_S16x16x16x129_S16x16x16x1_0_0_0_0 : ∀ a, (![0, 0, 0, 0] : Fin 4 → Nat) a + S16x16x16x1.size a ≤ S16x16x16x129.size a
  h_S16x16x16x1 : 0 < S16x16x16x1.numel
  inb_S16x16x16x129_S16x16x16x128_0_0_0_1 : ∀ a, (![0, 0, 0, 1] : Fin 4 → Nat) a + S16x16x16x128.size a ≤ S16x16x16x129.size a
  h_S16x16x16x128 : 0 < S16x16x16x128.numel
  dot_S256x512_S512x512_S256x512_1_0_0_1_n_n_wf : DotDims.WF S256x512 S512x512 S256x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S3072x512.size a
  hwx0_0 : ∀ i : grid0.Coords, EltTy.bits .f32 = 32 ∨ (Rect.block (s := S3072x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S3072x512.size a
  hwx0_2 : ∀ i : grid0.Coords, EltTy.bits .f32 = 32 ∨ (Rect.block (s := S3072x512) S256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x16x512.size a ≤ S96x16x512.size a
  hwx1_0 : ∀ i : grid1.Coords, EltTy.bits .f32 = 32 ∨ (Rect.block (s := S96x16x512) S16x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x16x512.size a ≤ S16x96x512.size a
  hwx1_1 : ∀ i : grid1.Coords, EltTy.bits .f32 = 32 ∨ (Rect.block (s := S16x96x512) S16x16x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x16x16x129.size a ≤ S96x16x96x129.size a
  hwx1_4 : ∀ i : grid1.Coords, EltTy.bits .f32 = 32 ∨ (Rect.block (s := S96x16x96x129) S16x16x16x129.size (cc1_transform_4 i) (hinb1_4 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_v5) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S16x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S16x16x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S16x16x16x129.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S96x16x512 : Shape := ⟨3, ![96, 16, 512]⟩
abbrev S512x1024 : Shape := ⟨2, ![512, 1024]⟩
abbrev S512 : Shape := ⟨1, ![512]⟩
abbrev S128x512 : Shape := ⟨2, ![128, 512]⟩
abbrev S128 : Shape := ⟨1, ![128]⟩
abbrev S512x512 : Shape := ⟨2, ![512, 512]⟩
abbrev S96x16x1x512 : Shape := ⟨4, ![96, 16, 1, 512]⟩
abbrev S16x96x512 : Shape := ⟨3, ![16, 96, 512]⟩
abbrev S1x16x96x512 : Shape := ⟨4, ![1, 16, 96, 512]⟩
abbrev S96x16x96x512 : Shape := ⟨4, ![96, 16, 96, 512]⟩
abbrev S1x1x1x512 : Shape := ⟨4, ![1, 1, 1, 512]⟩
abbrev S_ : Shape := ⟨0, ![]⟩
abbrev S96x16x96x128 : Shape := ⟨4, ![96, 16, 96, 128]⟩
abbrev S1x1x1x128 : Shape := ⟨4, ![1, 1, 1, 128]⟩
abbrev S96x16x96x1 : Shape := ⟨4, ![96, 16, 96, 1]⟩
abbrev S96x16x96x129 : Shape := ⟨4, ![96, 16, 96, 129]⟩
abbrev S96x16x96 : Shape := ⟨3, ![96, 16, 96]⟩

abbrev nBuf : Space → Nat
  | .hbm => 44
  | .vmem => 0
  | .smem => 0
  | _ => 0

abbrev bufTy : (tb : Table) → Fin (tcTables nBuf tb) → BufTy
  | .hbm, ⟨0, _⟩ => ⟨S96x16x512, .f32⟩
  | .hbm, ⟨1, _⟩ => ⟨S96x16x512, .f32⟩
  | .hbm, ⟨2, _⟩ => ⟨S512x1024, .f32⟩
  | .hbm, ⟨3, _⟩ => ⟨S512, .f32⟩
  | .hbm, ⟨4, _⟩ => ⟨S128x512, .f32⟩
  | .hbm, ⟨5, _⟩ => ⟨S128, .f32⟩
  | .hbm, ⟨6, _⟩ => ⟨S512x512, .f32⟩
  | .hbm, ⟨7, _⟩ => ⟨S96x16x512, .f32⟩
  | .hbm, ⟨8, _⟩ => ⟨S512x512, .f32⟩
  | .hbm, ⟨9, _⟩ => ⟨S96x16x512, .f32⟩
  | .hbm, ⟨10, _⟩ => ⟨S96x16x1x512, .f32⟩
  | .hbm, ⟨11, _⟩ => ⟨S16x96x512, .f32⟩
  | .hbm, ⟨12, _⟩ => ⟨S1x16x96x512, .f32⟩
  | .hbm, ⟨13, _⟩ => ⟨S96x16x96x512, .f32⟩
  | .hbm, ⟨14, _⟩ => ⟨S96x16x96x512, .f32⟩
  | .hbm, ⟨15, _⟩ => ⟨S96x16x96x512, .f32⟩
  | .hbm, ⟨16, _⟩ => ⟨S1x1x1x512, .f32⟩
  | .hbm, ⟨17, _⟩ => ⟨S96x16x96x512, .f32⟩
  | .hbm, ⟨18, _⟩ => ⟨S96x16x96x512, .f32⟩
  | .hbm, ⟨19, _⟩ => ⟨S_, .f32⟩
  | .hbm, ⟨20, _⟩ => ⟨S96x16x96x512, .f32⟩
  | .hbm, ⟨21, _⟩ => ⟨S96x16x96x512, .f32⟩
  | .hbm, ⟨22, _⟩ => ⟨S96x16x96x128, .f32⟩
  | .hbm, ⟨23, _⟩ => ⟨S1x1x1x128, .f32⟩
  | .hbm, ⟨24, _⟩ => ⟨S96x16x96x128, .f32⟩
  | .hbm, ⟨25, _⟩ => ⟨S96x16x96x128, .f32⟩
  | .hbm, ⟨26, _⟩ => ⟨S_, .f32⟩
  | .hbm, ⟨27, _⟩ => ⟨S96x16x96x1, .f32⟩
  | .hbm, ⟨28, _⟩ => ⟨S96x16x96x129, .f32⟩
  | .hbm, ⟨29, _⟩ => ⟨S_, .f32⟩
  | .hbm, ⟨30, _⟩ => ⟨S96x16x96, .f32⟩
  | .hbm, ⟨31, _⟩ => ⟨S_, .f32⟩
  | .hbm, ⟨32, _⟩ => ⟨S96x16x96, .f32⟩
  | .hbm, ⟨33, _⟩ => ⟨S96x16x96, .f32⟩
  | .hbm, ⟨34, _⟩ => ⟨S96x16x96x1, .f32⟩
  | .hbm, ⟨35, _⟩ => ⟨S96x16x96x129, .f32⟩
  | .hbm, ⟨36, _⟩ => ⟨S96x16x96x129, .f32⟩
  | .hbm, ⟨37, _⟩ => ⟨S96x16x96x129, .f32⟩
  | .hbm, ⟨38, _⟩ => ⟨S_, .f32⟩
  | .hbm, ⟨39, _⟩ => ⟨S96x16x96, .f32⟩
  | .hbm, ⟨40, _⟩ => ⟨S96x16x96x1, .f32⟩
  | .hbm, ⟨41, _⟩ => ⟨S96x16x96x1, .f32⟩
  | .hbm, ⟨42, _⟩ => ⟨S96x16x96x129, .f32⟩
  | .hbm, ⟨43, _⟩ => ⟨S96x16x96x129, .f32⟩
  | _, _ => ⟨S96x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v20 : Ref sig .tc := ⟨.hbm, 43, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S96x16x512_S96x16x1x512_0_1_3 : S96x16x512.BroadcastsInDim S96x16x1x512 (![0, 1, 3] : Fin 3 → Fin S96x16x1x512.rank)
  transposes_S96x16x512_S16x96x512_1_0_2 : S96x16x512.Transposes [1, 0, 2] S16x96x512
  bcast_S16x96x512_S1x16x96x512_1_2_3 : S16x96x512.BroadcastsInDim S1x16x96x512 (![1, 2, 3] : Fin 3 → Fin S1x16x96x512.rank)
  bcast_S96x16x1x512_S96x16x96x512_0_1_2_3 : S96x16x1x512.BroadcastsInDim S96x16x96x512 (![0, 1, 2, 3] : Fin 4 → Fin S96x16x96x512.rank)
  bcast_S1x16x96x512_S96x16x96x512_0_1_2_3 : S1x16x96x512.BroadcastsInDim S96x16x96x512 (![0, 1, 2, 3] : Fin 4 → Fin S96x16x96x512.rank)
  bcast_S512_S1x1x1x512_3 : S512.BroadcastsInDim S1x1x1x512 (![3] : Fin 1 → Fin S1x1x1x512.rank)
  bcast_S1x1x1x512_S96x16x96x512_0_1_2_3 : S1x1x1x512.BroadcastsInDim S96x16x96x512 (![0, 1, 2, 3] : Fin 4 → Fin S96x16x96x512.rank)
  bcast_S_S96x16x96x512 : S_.BroadcastsInDim S96x16x96x512 (![] : Fin 0 → Fin S96x16x96x512.rank)
  bcast_S128_S1x1x1x128_3 : S128.BroadcastsInDim S1x1x1x128 (![3] : Fin 1 → Fin S1x1x1x128.rank)
  bcast_S1x1x1x128_S96x16x96x128_0_1_2_3 : S1x1x1x128.BroadcastsInDim S96x16x96x128 (![0, 1, 2, 3] : Fin 4 → Fin S96x16x96x128.rank)
  bcast_S_S96x16x96x1 : S_.BroadcastsInDim S96x16x96x1 (![] : Fin 0 → Fin S96x16x96x1.rank)
  concatenates_S96x16x96x1_S96x16x96x128_S96x16x96x129_d3 : Shape.Concatenates [S96x16x96x1, S96x16x96x128] S96x16x96x129 3
  reducesTo_S96x16x96x129_S96x16x96_d3 : S96x16x96x129.ReducesTo [3] S96x16x96
  h_S_ : 0 < S_.numel
  bcast_S_S96x16x96 : S_.BroadcastsInDim S96x16x96 (![] : Fin 0 → Fin S96x16x96.rank)
  bcast_S96x16x96_S96x16x96x1_0_1_2 : S96x16x96.BroadcastsInDim S96x16x96x1 (![0, 1, 2] : Fin 3 → Fin S96x16x96x1.rank)
  bcast_S96x16x96x1_S96x16x96x129_0_1_2_3 : S96x16x96x1.BroadcastsInDim S96x16x96x129 (![0, 1, 2, 3] : Fin 4 → Fin S96x16x96x129.rank)
  dot_S96x16x512_S512x512_S96x16x512_2_1_01_0_n_n_wf : DotDims.WF S96x16x512 S512x512 S96x16x512 [2] [1] [0, 1] [0] [] []
  dot_S96x16x96x512_S128x512_S96x16x96x128_3_1_012_0_n_n_wf : DotDims.WF S96x16x96x512 S128x512 S96x16x96x128 [3] [1] [0, 1, 2] [0] [] []

variable [Facts₀]

def dot_S96x16x512_S512x512_S96x16x512_2_1_01_0_n_n : DotDims S96x16x512 S512x512 S96x16x512 where
  lhsContracting := [2]
  rhsContracting := [1]
  lhsNonContracting := [0, 1]
  rhsNonContracting := [0]
  lhsBatch := []
  rhsBatch := []
  wf := dot_S96x16x512_S512x512_S96x16x512_2_1_01_0_n_n_wf
def dot_S96x16x96x512_S128x512_S96x16x96x128_3_1_012_0_n_n : DotDims S96x16x96x512 S128x512 S96x16x96x128 where
  lhsContracting := [3]
  rhsContracting := [1]
  lhsNonContracting := [0, 1, 2]
  rhsNonContracting := [0]
  lhsBatch := []
  rhsBatch := []
  wf := dot_S96x16x96x512_S128x512_S96x16x96x128_3_1_012_0_n_n_wf

class Facts : Prop extends Facts₀ where

variable [Facts]
-- ==== Proof.KernelRun.lean ====
/-
  The idealized kernel's run with its result named.

  The program is a stretch of host operations, the projection region, a second stretch, and the scoring
  region.  Every weakly fair execution terminates with every unscoped buffer at the contents the last boundary
  gives it; read at the result buffer that is what the scoring region's write-backs leave in its output array,
  and read at an argument it is the launch contents.
-/
import proofs.«159628_j91199335563522_2_alg».proof.Defs
import proofs.«159628_j91199335563522_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the scoring region's output array. -/
theorem result_ref : Pipeline.arrRef spec1 4 = main_v17 := rfl

set_option backward.isDefEq.respectTransparency.types false in
/-- Every weakly fair execution of the idealized kernel terminates, nothing faulting, with the result buffer at
    what the scoring region's write-backs leave in its output array and the arguments as launched. -/
theorem run_result : θ_run defs (onTc (τ := τ) (main (F := F))) ⟨m, fun _ => 0, ρ⟩ (fun r => ∀ c : Dev nD,
      r.2.mem ((c.tc : Thread nD τ).loc main_v17) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v17 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.RunValue

end
-- ==== Proof.LibPlainProduct.lean ====
/-
  A plain matrix product read at an entry.

  For the dimension numbers of an M×K by K×N product (left operand contracted on its columns, right operand on
  its rows, no batch axis), the vector unit's product into a zero accumulator and the host's general dot
  product, read at the ideal values at row `p` and column `c`, are both the sum over `k : Fin K` of
  `l (p, k) · r (k, c)`: the contraction's one-axis index set is re-indexed by its coordinate, and the two
  operand indices at an output index are computed axis by axis.
-/
import Idealize.ShloMosaic.PureOps.Ideal.Laws
import Idealize.ShloMosaic.Lib.ValueIdx

noncomputable section

open scoped BigOperators

namespace Idealize.ShloMosaic.PlainProduct

open Idealize.ShloMosaic Idealize.ShloMosaic.ValueIdx

variable {M K N : Nat}

/-- The left operand's row at an output index is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction's coordinate. -/
theorem lhs_col (i : (⟨2, ![M, N]⟩ : Shape).Idx) (q : (DotDims.plain M K N).contr.Idx) :
    ((DotDims.plain M K N).lhsIdx i q 1).val = (q ⟨0, (DotDims.plain M K N).rank_contr ▸ Nat.one_pos⟩).val :=
  (DotDims.plain M K N).lhsIdx_val_of_single rfl i q

/-- The right operand's row is the contraction's coordinate. -/
theorem rhs_row (i : (⟨2, ![M, N]⟩ : Shape).Idx) (q : (DotDims.plain M K N).contr.Idx) :
    ((DotDims.plain M K N).rhsIdx i q 0).val = (q ⟨0, (DotDims.plain M K N).rank_contr ▸ Nat.one_pos⟩).val :=
  (DotDims.plain M K N).rhsIdx_val_of_single rfl i q

/-- The right operand's column at an output index is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum at entry `(p, c)` is the sum over `k` of `l (p, k) · r (k, c)`. -/
theorem sum_contr (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- The vector unit's product into a zero accumulator at entry `(p, c)`. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ k : Fin K, l (ix2 p k) * r (ix2 k c) := by
  subst hd
  simp only [matmul]
  rw [Ideal.matmul_constant_zero_apply]
  exact sum_contr l r p c

/-- The host's general dot product at entry `(p, c)`. -/
theorem dotGeneral_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    (Host.dotGeneral d prec l r : FVec Ideal ⟨2, ![M, N]⟩ .f32) (ix2 p c) = ∑ k : Fin K, l (ix2 p k) * r (ix2 k c) := by
  subst hd
  simp only [Host.dotGeneral]
  rw [Ideal.dotGeneral_apply]
  exact sum_contr l r p c

end Idealize.ShloMosaic.PlainProduct

end
-- ==== Proof.ProjBody.lean ====
/-
  The projection region's block product, read at an entry.

  A point of the projection region loads a [256, 512] block of rows and one [512, 512] plane of the stacked weight and
  stores their product with the plane transposed: at row p and column c the sum over i of the row block at (p, i)
  times the plane at (c, i).
-/
import proofs.«159628_j91199335563522_2_alg».proof.Proof.Gen.KernelIdeal.Skeleton
import proofs.«159628_j91199335563522_2_alg».proof.Proof.LibPlainProduct
import Idealize.ShloMosaic.Lib.ValueLayout
import Idealize.ShloMosaic.Lib.Pipeline.Value
import Idealize.ShloMosaic.Lib.ValueIdx

noncomputable section

open scoped BigOperators

namespace Cert.KernelIdeal.Bodies

open Cert.KernelIdeal Cert.KernelIdeal.Gen Idealize.ShloMosaic Idealize.ShloMosaic.ValueIdx

/-- The block product contracts the rows' columns against the transposed plane's rows: a plain product. -/
theorem proj_dims : dot_S256x512_S512x512_S256x512_1_0_0_1_n_n = DotDims.plain 256 512 512 := rfl

/-- The stored block at (p, c): the sum over i of the loaded rows at (p, i) times the loaded plane at (0, c, i). -/
theorem proj_body_apply (v0 : Vec Ideal S256x512 .f32) (v3 : Vec Ideal S1x512x512 .f32) (p : Fin 256) (c : Fin 512) :
    k0_pay1 (F := Ideal) v0 v3 (ix2 p c) = ∑ i : Fin 512, v0 (ix2 p i) * v3 (ix3 (0 : Fin 1) c i) := by
  unfold k0_pay1
  refine (PlainProduct.matmul_zero_apply _ proj_dims none _ _ p c).trans ?_
  refine Finset.sum_congr rfl fun i _ => ?_
  refine congrArg₂ (· * ·) ?_ ?_
  · exact congrFun (shapeCast_self v0 shapeCasts_S256x512_S256x512) (ix2 p i)
  · refine (transpose_ix2_apply _ transposes_S512x512_p1_0_S512x512 i c).trans ?_
    exact shapeCast_1ab_ab_apply v3 shapeCasts_S1x512x512_S512x512 c i

end Cert.KernelIdeal.Bodies

end
-- ==== Proof.ProjValue.lean ====
/-
  The projection region: what its output array holds after the region.

  The region's 12 points each take a block of 256 rows of the [3072, 512] operand and the plane ⌊t / 6⌋ of the [2, 512, 512]
  stacked weight, and write back the block's product with that plane transposed.  The 12 blocks tile the output, so after the
  region the output array holds, at row R and column e, the sum over i of the operand at (R, i) times the weight at
  (⌊R / 1536⌋, e, i), whatever the region found in the operand arrays.
-/
import proofs.«159628_j91199335563522_2_alg».proof.Proof.Gen.KernelIdeal.Frame
import proofs.«159628_j91199335563522_2_alg».proof.Proof.ProjBody
import Idealize.ShloMosaic.Lib.Pipeline.Value
import Idealize.ShloMosaic.Lib.ValueIdx

set_option maxRecDepth 16384

noncomputable section

open scoped BigOperators

namespace Cert.KernelIdeal.ProjValue

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)

/-- The plane of the stacked weight that row `R` of the operand is multiplied by. -/
def planeOf (R : Fin 3072) : Fin 2 := ⟨R.val / 1536, by have := R.isLt; omega⟩

/-- The projection of a [3072, 512] operand by a [2, 512, 512] stacked weight. -/
def projOf (rows : S3072x512.Idx → EReal) (wts : S2x512x512.Idx → EReal) : S3072x512.Idx → EReal :=
  fun i => ∑ k : Fin 512, rows (ix2 (i 0) k) * wts (ix3 (planeOf (i 0)) (i 1) k)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the row block is the point, the weight plane its sixth, the columns whole. -/
theorem idx_facts : ∀ t : Fin cfg0.N, win0_0.index t (0 : Fin 2) = t.val ∧ win0_0.index t (1 : Fin 2) = 0
    ∧ win0_1.index t (0 : Fin 3) = t.val / 6 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- One point: if the loaded rows are rows `256 t + p` of the operand and the loaded plane is plane `⌊t / 6⌋` of the weight,
    the stored block at (p, q) is the projection at (256 t + p, q). -/
theorem point_apply (rows : S3072x512.Idx → EReal) (wts : S2x512x512.Idx → EReal) (x0 : Vec Ideal S256x512 .f32)
    (x1 : Vec Ideal S1x512x512 .f32) (t : Nat) (ht : t < 12) (p : Fin 256) (q : Fin 512) (R : Fin 3072) (hR : R.val = t * 256 + p.val)
    (h0 : ∀ k : Fin 512, x0 (ix2 p k) = rows (ix2 R k))
    (h1 : ∀ k : Fin 512, x1 (ix3 (0 : Fin 1) q k) = wts (ix3 (planeOf R) q k)) :
    k0_pay1 (F := Ideal) x0 x1 (ix2 p q) = projOf rows wts (ix2 R q) := by
  refine (proj_body_apply x0 x1 p q).trans ?_
  unfold projOf
  exact Finset.sum_congr rfl fun k _ => by rw [h0 k, h1 k]

variable (V : (c : Dev nD) → (b : Ref sig .tc) → Buf (Elt Ideal) ((c : Thread nD τ).loc b))

/-- What point `t` writes back is block `t` of the projection of the operand arrays as the region finds them. -/
theorem flushed_eq (c : Dev nD) (t : Fin cfg0.N) :
    (dat0 V c).flushed 2 t = ((cfg0.win 2).blk t).view.read (Elt Ideal) (projOf (V c main_v5) (V c main_v8)) := by
  show (cfg0.win 2).cut (grid0.coords t) ((dat0 V c).after 2 t) = _
  rw [after0_2]
  unfold out0_2
  rw [View.canon_unit_zero hz2]
  simp only [View.ld_unit_zero (S := S256x512) hz2, View.ld_unit_zero (S := S1x512x512) hz3]
  obtain ⟨e0, e1, e2, e3, e4, e5, e6⟩ := idx_facts t
  have ht : t.val < 12 := lt_of_lt_of_eq t.isLt (N_0 : cfg0.N = 12)
  funext j
  obtain ⟨p, q, rfl⟩ : ∃ (p : Fin 256) (q : Fin 512), j = ix2 p q := ⟨j 0, j 1, eq_ix2 j⟩
  have hp : p.val < 256 := p.isLt
  have hq : q.val < 512 := q.isLt
  have hR : ((cfg0.win 2).blk t).view.emb (ix2 p q) = ix2 (⟨t.val * 256 + p.val, by omega⟩ : Fin 3072) q := by
    funext a; apply Fin.ext
    match a with
    | ⟨0, _⟩ => show win0_2.index t (0 : Fin 2) * 256 + 1 * p.val = t.val * 256 + p.val; omega
    | ⟨1, _⟩ => show win0_2.index t (1 : Fin 2) * 512 + 1 * q.val = q.val; omega
  refine (point_apply (V c main_v5) (V c main_v8) (iblk0 V c 0 t) (iblk0 V c 1 t) t.val ht p q
    (⟨t.val * 256 + p.val, by omega⟩ : Fin 3072) rfl ?_ ?_).trans ?_
  · intro k
    have hk : k.val < 512 := k.isLt
    show V c main_v5 (((cfg0.win 0).blk t).view.emb (ix2 p k)) = V c main_v5 (ix2 (⟨t.val * 256 + p.val, by omega⟩ : Fin 3072) k)
    refine congrArg (V c main_v5) (funext fun a => Fin.ext ?_)
    match a with
    | ⟨0, _⟩ => show win0_0.index t (0 : Fin 2) * 256 + 1 * p.val = t.val * 256 + p.val; omega
    | ⟨1, _⟩ => show win0_0.index t (1 : Fin 2) * 512 + 1 * k.val = k.val; omega
  · intro k
    have hk : k.val < 512 := k.isLt
    show V c main_v8 (((cfg0.win 1).blk t).view.emb (ix3 (0 : Fin 1) q k))
      = V c main_v8 (ix3 (planeOf (⟨t.val * 256 + p.val, by omega⟩ : Fin 3072)) q k)
    refine congrArg (V c main_v8) (funext fun a => Fin.ext ?_)
    match a with
    | ⟨0, _⟩ => show win0_1.index t (0 : Fin 3) * 1 + 1 * 0 = (t.val * 256 + p.val) / 1536; omega
    | ⟨1, _⟩ => show win0_1.index t (1 : Fin 3) * 512 + 1 * q.val = q.val; omega
    | ⟨2, _⟩ => show win0_1.index t (2 : Fin 3) * 512 + 1 * k.val = k.val; omega
  · show projOf (V c main_v5) (V c main_v8) _ = projOf (V c main_v5) (V c main_v8) (((cfg0.win 2).blk t).view.emb (ix2 p q))
    rw [hR]

/-- An index of the output array is in point `t`'s block iff each coordinate is in the block's range on its axis. -/
theorem mem_blk (t : Fin cfg0.N) (i : S3072x512.Idx) :
    i ∈ ((cfg0.win 2).blk t).view.set ↔ ∀ a : Fin 2, win0_2.index t a * S256x512.size a ≤ (i a).val ∧ (i a).val < win0_2.index t a * S256x512.size a + S256x512.size a := by
  show i ∈ ((View.whole main_v9).slice (win0_2.rect t)).set ↔ _
  rw [View.set_slice_whole, Rect.mem_set_unit]
  exact Iff.rfl

/-- Every index of the output array is in the block of the point its row falls in. -/
theorem cover (i : S3072x512.Idx) : ∃ t : Fin cfg0.N, (cfg0.win 2).flush t = true ∧ i ∈ ((cfg0.win 2).blk t).view.set := by
  have hi0 : (i 0).val < 3072 := (i 0).isLt
  have hi1 : (i 1).val < 512 := (i 1).isLt
  have hN : (i 0).val / 256 < cfg0.N := lt_of_lt_of_eq (by omega : (i 0).val / 256 < 12) (N_0 : cfg0.N = 12).symm
  refine ⟨⟨(i 0).val / 256, hN⟩, flush0_2 _, ?_⟩
  rw [mem_blk]
  obtain ⟨-, -, -, -, -, e5, e6⟩ := idx_facts ⟨(i 0).val / 256, hN⟩
  intro a
  match a with
  | ⟨0, _⟩ =>
    show win0_2.index ⟨(i 0).val / 256, hN⟩ (0 : Fin 2) * 256 ≤ (i 0).val ∧ (i 0).val < win0_2.index ⟨(i 0).val / 256, hN⟩ (0 : Fin 2) * 256 + 256
    rw [e5]; show (i 0).val / 256 * 256 ≤ (i 0).val ∧ (i 0).val < (i 0).val / 256 * 256 + 256; omega
  | ⟨1, _⟩ =>
    show win0_2.index ⟨(i 0).val / 256, hN⟩ (1 : Fin 2) * 512 ≤ (i 1).val ∧ (i 1).val < win0_2.index ⟨(i 0).val / 256, hN⟩ (1 : Fin 2) * 512 + 512
    rw [e6]; omega

/-- The output array after the region: the projection of the operand arrays as the region found them. -/
theorem final (c : Dev nD) : (dat0 V c).arrAt 2 cfg0.N = projOf (V c main_v5) (V c main_v8) :=
  (dat0 V c).arrAt_eq_of_cover 2 _ (fun t _ => flushed_eq V c t) cover

end Cert.KernelIdeal.ProjValue

end
-- ==== Proof.Spec.lean ====
/-
  The scores of all (dependent, batch, head) triples and their log-softmax against an extra zero score.

  From outs, graph_state : [96, 16, 512], Wt : [512, 1024], bt : [512], Wp : [128, 512], bp : [128]:
    dep  (d, b, e) = sum over i of outs (d, b, i) * Wt (e, i)
    head (h, b, e) = sum over i of graph_state (h, b, i) * Wt (e, 512 + i)
    hid  (d, b, h, e) = max (dep (d, b, e) + head (h, b, e) + bt e) 0
    score (d, b, h, r) = (sum over e of hid (d, b, h, e) * Wp (r, e)) + bp r
  The row x of 129 entries at (d, b, h) is 0 followed by the 128 scores, and the result at (d, b, h, k) is
    (x k - M) - log (sum over j of exp (x j - M)),   M the largest entry of x.
  Everything is stated on the extended reals; nothing here needs the entries to be finite.
-/
import Idealize.ShloMosaic.PureOps.Ideal
import Idealize.ShloMosaic.Lib.ValueIdx

noncomputable section

open scoped BigOperators

namespace Cert.PairScores

open Idealize.ShloMosaic Idealize.ShloMosaic.ValueIdx

/-- Column `i` of the left half of the [512, 1024] weight. -/
def colL (i : Fin 512) : Fin 1024 := ⟨i.val, by have := i.isLt; omega⟩
/-- Column `512 + i`, in the right half. -/
def colR (i : Fin 512) : Fin 1024 := ⟨512 + i.val, by have := i.isLt; omega⟩

/-- The dependents' projection by the left half of the weight. -/
def dep (x0 : (⟨3, ![96, 16, 512]⟩ : Shape).Idx → EReal) (w : (⟨2, ![512, 1024]⟩ : Shape).Idx → EReal)
    (d : Fin 96) (b : Fin 16) (e : Fin 512) : EReal :=
  ∑ i : Fin 512, x0 (ix3 d b i) * w (ix2 e (colL i))

/-- The heads' projection by the right half of the weight. -/
def head (x1 : (⟨3, ![96, 16, 512]⟩ : Shape).Idx → EReal) (w : (⟨2, ![512, 1024]⟩ : Shape).Idx → EReal)
    (h : Fin 96) (b : Fin 16) (e : Fin 512) : EReal :=
  ∑ i : Fin 512, x1 (ix3 h b i) * w (ix2 e (colR i))

/-- The hidden feature of a (dependent, head) pair: the two projections and the bias, clamped below at 0. -/
def hid (x0 x1 : (⟨3, ![96, 16, 512]⟩ : Shape).Idx → EReal) (w : (⟨2, ![512, 1024]⟩ : Shape).Idx → EReal)
    (bt : (⟨1, ![512]⟩ : Shape).Idx → EReal) (d : Fin 96) (b : Fin 16) (h : Fin 96) (e : Fin 512) : EReal :=
  max (dep x0 w d b e + head x1 w h b e + bt (ix1 e)) 0

/-- The score of relation `r` for the pair. -/
def score (x0 x1 : (⟨3, ![96, 16, 512]⟩ : Shape).Idx → EReal) (w : (⟨2, ![512, 1024]⟩ : Shape).Idx → EReal)
    (bt : (⟨1, ![512]⟩ : Shape).Idx → EReal) (wp : (⟨2, ![128, 512]⟩ : Shape).Idx → EReal)
    (bp : (⟨1, ![128]⟩ : Shape).Idx → EReal) (d : Fin 96) (b : Fin 16) (h : Fin 96) (r : Fin 128) : EReal :=
  (∑ e : Fin 512, hid x0 x1 w bt d b h e * wp (ix2 r e)) + bp (ix1 r)

/-- A row of 128 scores with the zero score put in front. -/
def withZero (s : Fin 128 → EReal) (k : Fin 129) : EReal :=
  if h : k.val = 0 then 0 else s ⟨k.val - 1, by have := k.isLt; omega⟩

/-- The log-softmax of the 129-entry row, as the reference takes it: the largest entry (folded from -inf, and
    taken once more against -inf) is subtracted first, then the log of the sum of exponentials (summed from 0). -/
def rowRef (s : Fin 128 → EReal) (k : Fin 129) : EReal :=
  let M := max (⊥ : EReal) ((Finset.univ : Finset (Fin 129)).fold max (⊥ : EReal) (withZero s))
  (withZero s k - M) - Ideal.log (0 + ∑ j : Fin 129, Ideal.exp (withZero s j - M))

/-- The same row as the kernel takes it: the largest of the 128 scores and 0, the zero score's exponential
    added to the 128 others, and `m + log (...)` subtracted in one step. -/
def rowKer (s : Fin 128 → EReal) (k : Fin 129) : EReal :=
  let m := max ((Finset.univ : Finset (Fin 128)).fold max (⊥ : EReal) s) 0
  let lse := m + Ideal.log (Ideal.exp (0 - m) + ∑ r : Fin 128, Ideal.exp (s r - m))
  if h : k.val = 0 then 0 - lse else s ⟨k.val - 1, by have := k.isLt; omega⟩ - lse

/-- The result array, in the reference's arrangement. -/
def result (x0 x1 : (⟨3, ![96, 16, 512]⟩ : Shape).Idx → EReal) (w : (⟨2, ![512, 1024]⟩ : Shape).Idx → EReal)
    (bt : (⟨1, ![512]⟩ : Shape).Idx → EReal) (wp : (⟨2, ![128, 512]⟩ : Shape).Idx → EReal)
    (bp : (⟨1, ![128]⟩ : Shape).Idx → EReal) : (⟨4, ![96, 16, 96, 129]⟩ : Shape).Idx → EReal :=
  fun i => rowRef (score x0 x1 w bt wp bp (i 0) (i 1) (i 2)) (i 3)

end Cert.PairScores

end
-- ==== Proof.LibMoreForms.lean ====
/-
  More layout facts, each reading a reshaped or broadcast array at an index given by coordinates.

  • An `[a, 1]` column viewed as an `[a]` vector reads, at `p`, the column at `(p, 0)`: dropping a trailing unit axis
    does not move an entry's row-major position.
  • A `[c]` vector laid along the LAST axis of `[a, b, c]` reads, at `(p, q, k)`, the vector at `k`, whatever `p` and `q`.
  • An `[a, b, c]` array viewed as `[m, c]` (its two leading axes merged) reads, at `(k, n)` with `k = p · b + q`,
    the array at `(p, q, n)`: both have row-major position `(p · b + q) · c + n`.
  • A scalar laid over any shape reads the scalar everywhere.
-/
import Idealize.ShloMosaic.Lib.Pipeline.Value
import Idealize.ShloMosaic.Lib.ValueIdx

namespace Cert.Lib.MoreForms

open Idealize.ShloMosaic Idealize.ShloMosaic.ValueIdx

variable {α : Type}

/-- An `[a, 1]` column cast to an `[a]` vector reads, at `p`, the column at `(p, 0)`. -/
theorem shapeCast_a1_a_apply {a : ℕ} (x : (⟨2, ![a, 1]⟩ : Shape).Idx → α) (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A `[c]` vector broadcast along the last axis of `[a, b, c]` reads, at `(p, q, k)`, the vector at `k`. -/
theorem broadcastInDim_c_abc_apply {a b c : ℕ} (x : (⟨1, ![c]⟩ : Shape).Idx → α) (h : (⟨1, ![c]⟩ : Shape).BroadcastsInDim ⟨3, ![a, b, c]⟩ ![2]) (p : Fin a) (q : Fin b) (k : Fin c) :
    broadcastInDim ⟨3, ![a, b, c]⟩ ![2] h x (ix3 p q k) = x (ix1 k) := by
  refine broadcastInDim_apply ![2] h x (ix3 p q k) (ix1 k) fun ax => ?_
  match ax with
  | ⟨0, _⟩ =>
    show k.val = if c = 1 then 0 else k.val
    split
    · have := k.isLt; omega
    · rfl

/-- An `[a, b, c]` array cast to `[m, c]` reads, at `(k, n)` with `k = p · b + q`, the array at `(p, q, n)`. -/
theorem shapeCast_abc_mc_apply {a b c m : ℕ} (x : (⟨3, ![a, b, c]⟩ : Shape).Idx → α) (h : (⟨3, ![a, b, c]⟩ : Shape).ShapeCasts ⟨2, ![m, c]⟩)
    (k : Fin m) (n : Fin c) (p : Fin a) (q : Fin b) (hk : k.val = p.val * b + q.val) :
    shapeCast ⟨2, ![m, c]⟩ x h (ix2 k n) = x (ix3 p q n) :=
  shapeCast_apply x h _ _ (by
    rw [Shape.rowMajor_val_three, Shape.rowMajor_val_two]
    show (p.val * b + q.val) * c + n.val = k.val * c + n.val
    rw [hk])

/-- A scalar broadcast to any shape reads, at every index, the scalar. -/
theorem broadcastInDim_scalar_apply {s : Shape} (x : (⟨0, ![]⟩ : Shape).Idx → α) (h : (⟨0, ![]⟩ : Shape).BroadcastsInDim s (![] : Fin 0 → Fin s.rank)) (i : s.Idx) :
    broadcastInDim s ![] h x i = x ix0 :=
  broadcastInDim_apply ![] h x i ix0 fun ax => ax.elim0

end Cert.Lib.MoreForms
-- ==== Proof.Between.lean ====
/-
  The host operations around the two regions, read at coordinates.

  Before the projection region the host lays the dependents' rows (row 16 d + b is outs (d, b, ·)) above the heads' rows taken
  batch-major (row 1536 + 96 b + h is graph_state (h, b, ·)), and stacks the two halves of the weight's columns as two planes
  (plane g at (e, i) is Wt (e, 512 g + i)).  The projection of those rows by those planes is therefore the dependents'
  projection on the upper rows and the heads' projection on the lower rows.  Between the regions the host cuts the
  projection's rows back into a [96, 16, 512] array, to which it adds the bias along the last axis, and a [16, 96, 512] array;
  the two weights of the scores reach the scoring region as launched.
-/
import proofs.«159628_j91199335563522_2_alg».proof.Proof.Gen.KernelIdeal.Frame
import proofs.«159628_j91199335563522_2_alg».proof.Proof.ProjValue
import proofs.«159628_j91199335563522_2_alg».proof.Proof.Spec
import proofs.«159628_j91199335563522_2_alg».proof.Proof.LibMoreForms
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Between

open Cert.KernelIdeal Cert.KernelIdeal.Gen Cert.KernelIdeal.ProjValue Cert.PairScores Cert.Lib.MoreForms
open Idealize.ShloMosaic Idealize.ShloMosaic.TcCoe Idealize.ShloMosaic.ValueIdx Idealize.SL.Sem Idealize.ShloMosaic.StableHlo

/-! ## The operand arrays of the projection region -/

/-- The rows the projection region is given: the dependents' rows above the heads' rows (batch-major). -/
def rowsTerm (a0 a1 : S96x16x512.Idx → EReal) : S3072x512.Idx → EReal :=
  concatenate S3072x512 0
    [⟨S1536x512, shapeCast S1536x512 a0 shapeCasts_S96x16x512_S1536x512⟩,
     ⟨S1536x512, shapeCast S1536x512 (transpose S16x96x512 [1, 0, 2] a1 transposes_S96x16x512_S16x96x512_1_0_2) shapeCasts_S16x96x512_S1536x512⟩]
    concatenates_S1536x512_S1536x512_S3072x512_d0

/-- The stacked weight the projection region is given: the two halves of the weight's columns as two planes. -/
def wtsTerm (a2 : S512x1024.Idx → EReal) : S2x512x512.Idx → EReal :=
  concatenate S2x512x512 0
    [⟨S1x512x512, broadcastInDim S1x512x512 ![1, 2] bcast_S512x512_S1x512x512_1_2 (extractStridedSlice S512x512 ![0, 0] a2 slices_S512x1024_S512x512_0_0)⟩,
     ⟨S1x512x512, broadcastInDim S1x512x512 ![1, 2] bcast_S512x512_S1x512x512_1_2 (extractStridedSlice S512x512 ![0, 512] a2 slices_S512x1024_S512x512_0_512)⟩]
    concatenates_S1x512x512_S1x512x512_S2x512x512_d0

/-- Row 16 d + b is the dependents' row (d, b). -/
theorem rows_lo (a0 a1 : S96x16x512.Idx → EReal) (d : Fin 96) (b : Fin 16) (k : Fin 512) (R : Fin 3072)
    (hR : R.val = d.val * 16 + b.val) : rowsTerm a0 a1 (ix2 R k) = a0 (ix3 d b k) := by
  have hd := d.isLt; have hb := b.isLt
  unfold rowsTerm
  refine (concatenate_pair_apply_left (t := S3072x512) (s₁ := S1536x512) (s₂ := S1536x512) (0 : Fin 2) _ _ concatenates_S1536x512_S1536x512_S3072x512_d0 (ix2 R k) rfl
    (ix2 (⟨R.val, by omega⟩ : Fin 1536) k) (fun bb => by match bb with | ⟨0, _⟩ => rfl | ⟨1, _⟩ => rfl)).trans ?_
  exact shapeCast_abc_mc_apply a0 shapeCasts_S96x16x512_S1536x512 _ k d b hR

/-- Row 1536 + 96 b + h is the heads' row (h, b). -/
theorem rows_hi (a0 a1 : S96x16x512.Idx → EReal) (b : Fin 16) (h : Fin 96) (k : Fin 512) (R : Fin 3072)
    (hR : R.val = 1536 + (b.val * 96 + h.val)) : rowsTerm a0 a1 (ix2 R k) = a1 (ix3 h b k) := by
  have hh := h.isLt; have hb := b.isLt
  unfold rowsTerm
  refine (concatenate_pair_apply_right (t := S3072x512) (s₁ := S1536x512) (s₂ := S1536x512) (0 : Fin 2) _ _ concatenates_S1536x512_S1536x512_S3072x512_d0 (ix2 R k) rfl rfl
    (ix2 (⟨R.val - 1536, by omega⟩ : Fin 1536) k) (fun bb hbb => by
      match bb with
      | ⟨0, _⟩ => exact absurd rfl hbb
      | ⟨1, _⟩ => rfl) (by show R.val - 1536 + 1536 = R.val; omega)).trans ?_
  refine (shapeCast_abc_mc_apply _ shapeCasts_S16x96x512_S1536x512 _ k b h (by show R.val - 1536 = b.val * 96 + h.val; omega)).trans ?_
  exact transpose_apply _ a1 transposes_S96x16x512_S16x96x512_1_0_2 (ix3 b h k) (ix3 h b k)
    (fun bb => by match bb with | ⟨0, _⟩ => rfl | ⟨1, _⟩ => rfl | ⟨2, _⟩ => rfl)

/-- Plane 0 at (e, i) is the weight at (e, i). -/
theorem wts_lo (a2 : S512x1024.Idx → EReal) (g : Fin 2) (hg : g.val = 0) (e i : Fin 512) :
    wtsTerm a2 (ix3 g e i) = a2 (ix2 e (colL i)) := by
  unfold wtsTerm
  refine (concatenate_pair_apply_left (t := S2x512x512) (s₁ := S1x512x512) (s₂ := S1x512x512) (0 : Fin 3) _ _ concatenates_S1x512x512_S1x512x512_S2x512x512_d0 (ix3 g e i) rfl
    (ix3 (0 : Fin 1) e i) (fun bb => by match bb with | ⟨0, _⟩ => exact hg.symm | ⟨1, _⟩ => rfl | ⟨2, _⟩ => rfl)).trans ?_
  refine (broadcastInDim_apply ![1, 2] bcast_S512x512_S1x512x512_1_2 _ (ix3 (0 : Fin 1) e i) (ix2 e i)
    (fun a => by match a with | ⟨0, _⟩ => rfl | ⟨1, _⟩ => rfl)).trans ?_
  exact extractStridedSlice_apply ![0, 0] a2 slices_S512x1024_S512x512_0_0 (ix2 e i) (ix2 e (colL i))
    (fun a => by match a with | ⟨0, _⟩ => (show e.val = 0 + e.val; omega) | ⟨1, _⟩ => (show i.val = 0 + i.val; omega))

/-- Plane 1 at (e, i) is the weight at (e, 512 + i). -/
theorem wts_hi (a2 : S512x1024.Idx → EReal) (g : Fin 2) (hg : g.val = 1) (e i : Fin 512) :
    wtsTerm a2 (ix3 g e i) = a2 (ix2 e (colR i)) := by
  unfold wtsTerm
  refine (concatenate_pair_apply_right (t := S2x512x512) (s₁ := S1x512x512) (s₂ := S1x512x512) (0 : Fin 3) _ _ concatenates_S1x512x512_S1x512x512_S2x512x512_d0 (ix3 g e i) rfl rfl
    (ix3 (0 : Fin 1) e i) (fun bb hbb => by
      match bb with
      | ⟨0, _⟩ => exact absurd rfl hbb
      | ⟨1, _⟩ => rfl
      | ⟨2, _⟩ => rfl) (by show 0 + 1 = g.val; omega)).trans ?_
  refine (broadcastInDim_apply ![1, 2] bcast_S512x512_S1x512x512_1_2 _ (ix3 (0 : Fin 1) e i) (ix2 e i)
    (fun a => by match a with | ⟨0, _⟩ => rfl | ⟨1, _⟩ => rfl)).trans ?_
  exact extractStridedSlice_apply ![0, 512] a2 slices_S512x1024_S512x512_0_512 (ix2 e i) (ix2 e (colR i))
    (fun a => by match a with | ⟨0, _⟩ => (show e.val = 0 + e.val; omega) | ⟨1, _⟩ => rfl)

/-- On the upper rows the projection is the dependents' projection. -/
theorem proj_lo (a0 a1 : S96x16x512.Idx → EReal) (a2 : S512x1024.Idx → EReal) (d : Fin 96) (b : Fin 16) (e : Fin 512)
    (R : Fin 3072) (hR : R.val = d.val * 16 + b.val) :
    projOf (rowsTerm a0 a1) (wtsTerm a2) (ix2 R e) = dep a0 a2 d b e := by
  have hd := d.isLt; have hb := b.isLt
  unfold projOf dep
  refine Finset.sum_congr rfl fun i _ => ?_
  rw [rows_lo a0 a1 d b i R hR, wts_lo a2 (planeOf R) (by show R.val / 1536 = 0; omega) e i]

/-- On the lower rows the projection is the heads' projection. -/
theorem proj_hi (a0 a1 : S96x16x512.Idx → EReal) (a2 : S512x1024.Idx → EReal) (h : Fin 96) (b : Fin 16) (e : Fin 512)
    (R : Fin 3072) (hR : R.val = 1536 + (b.val * 96 + h.val)) :
    projOf (rowsTerm a0 a1) (wtsTerm a2) (ix2 R e) = head a1 a2 h b e := by
  have hh := h.isLt; have hb := b.isLt
  unfold projOf head
  refine Finset.sum_congr rfl fun i _ => ?_
  rw [rows_hi a0 a1 b h i R hR, wts_hi a2 (planeOf R) (by show R.val / 1536 = 1; omega) e i]

/-! ## What the regions find, from the launch memory -/

variable (m : (ℓ : Loc nD τ sig) → Buf (Elt Ideal) ℓ) (ρ : Dev nD → PrngReg)

/-- The projection region finds the stacked rows of the two inputs in its first operand. -/
theorem rows_found (c : Dev nD) :
    (V1 m ρ c main_v5 : S3072x512.Idx → EReal) = rowsTerm (m ((c : Thread nD τ).loc main_arg0)) (m ((c : Thread nD τ).loc main_arg1)) := by
  show StableHlo.after hostOps0 (W0 m ρ c) (Proc.devRef .tc main_v5) = _
  after_results
  rfl

/-- … and the two planes of the weight in its second. -/
theorem wts_found (c : Dev nD) :
    (V1 m ρ c main_v8 : S2x512x512.Idx → EReal) = wtsTerm (m ((c : Thread nD τ).loc main_arg2)) := by
  show StableHlo.after hostOps0 (W0 m ρ c) (Proc.devRef .tc main_v8) = _
  after_results
  rfl

/-- After the projection region its output array holds the projection of those rows by those planes. -/
theorem proj_found (c : Dev nD) :
    (W2 m ρ c (Proc.devRef .tc main_v9) : S3072x512.Idx → EReal)
      = projOf (rowsTerm (m ((c : Thread nD τ).loc main_arg0)) (m ((c : Thread nD τ).loc main_arg1))) (wtsTerm (m ((c : Thread nD τ).loc main_arg2))) := by
  refine (W2_arr m ρ c 2).trans ((ProjValue.final (V1 m ρ) c).trans ?_)
  rw [rows_found m ρ c, wts_found m ρ c]

/-- The bias reaches the second stretch of host operations as launched. -/
theorem bias_found (c : Dev nD) : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  after_results
  all_goals rfl

/-- The second stretch's first result: the upper rows of the projection cut into [96, 16, 512], plus the bias along the last axis. -/
def depTerm (P : S3072x512.Idx → EReal) (bt : S512.Idx → EReal) : S96x16x512.Idx → EReal :=
  addf (F := Ideal) (φ := .f32)
    (shapeCast S96x16x512 (extractStridedSlice S1536x512 ![0, 0] P slices_S3072x512_S1536x512_0_0) shapeCasts_S1536x512_S96x16x512)
    (broadcastInDim S96x16x512 ![0, 1, 2] bcast_S1x1x512_S96x16x512_0_1_2 (broadcastInDim S1x1x512 ![2] bcast_S512_S1x1x512_2 bt))

/-- Its second result: the lower rows of the projection cut into [16, 96, 512]. -/
def headTerm (P : S3072x512.Idx → EReal) : S16x96x512.Idx → EReal :=
  shapeCast S16x96x512 (extractStridedSlice S1536x512 ![1536, 0] P slices_S3072x512_S1536x512_1536_0) shapeCasts_S1536x512_S16x96x512

/-- The scoring region finds, in its first operand, the dependents' projection with the bias added. -/
theorem dep_found (c : Dev nD) :
    (V3 m ρ c main_v14 : S96x16x512.Idx → EReal)
      = fun i => dep (m ((c : Thread nD τ).loc main_arg0)) (m ((c : Thread nD τ).loc main_arg2)) (i 0) (i 1) (i 2) + (m ((c : Thread nD τ).loc main_arg3)) (ix1 (i 2)) := by
  have e : (V3 m ρ c main_v14 : S96x16x512.Idx → EReal)
      = depTerm (W2 m ρ c (Proc.devRef .tc main_v9)) (W2 m ρ c (Proc.devRef .tc main_arg3)) := by
    show StableHlo.after hostOps1 (W2 m ρ c) (Proc.devRef .tc main_v14) = _
    after_results
    rfl
  rw [e, proj_found m ρ c, bias_found m ρ c]
  unfold depTerm
  funext i
  obtain ⟨d, b, f, rfl⟩ : ∃ (d : Fin 96) (b : Fin 16) (f : Fin 512), i = ix3 d b f := ⟨i 0, i 1, i 2, eq_ix3 i⟩
  have hd := d.isLt; have hb := b.isLt
  refine congrArg₂ (· + ·) ?_ ?_
  · refine (shapeCast_apply _ shapeCasts_S1536x512_S96x16x512 (ix3 d b f) (ix2 (⟨d.val * 16 + b.val, by omega⟩ : Fin 1536) f) (by
      rw [Shape.rowMajor_val_two, Shape.rowMajor_val_three]; rfl)).trans ?_
    refine (extractStridedSlice_apply ![0, 0] _ slices_S3072x512_S1536x512_0_0 (ix2 (⟨d.val * 16 + b.val, by omega⟩ : Fin 1536) f)
      (ix2 (⟨d.val * 16 + b.val, by omega⟩ : Fin 3072) f) (fun a => by
        match a with
        | ⟨0, _⟩ => (show d.val * 16 + b.val = 0 + (d.val * 16 + b.val); omega)
        | ⟨1, _⟩ => (show f.val = 0 + f.val; omega))).trans ?_
    exact proj_lo _ _ _ d b f _ rfl
  · refine (broadcastInDim_apply ![0, 1, 2] bcast_S1x1x512_S96x16x512_0_1_2 _ (ix3 d b f) (ix3 (0 : Fin 1) (0 : Fin 1) f)
      (fun a => by match a with | ⟨0, _⟩ => rfl | ⟨1, _⟩ => rfl | ⟨2, _⟩ => rfl)).trans ?_
    exact broadcastInDim_apply ![2] bcast_S512_S1x1x512_2 _ (ix3 (0 : Fin 1) (0 : Fin 1) f) (ix1 f)
      (fun a => by match a with | ⟨0, _⟩ => rfl)

/-- … and in its second operand the heads' projection, batch-major. -/
theorem head_found (c : Dev nD) :
    (V3 m ρ c main_v16 : S16x96x512.Idx → EReal) = fun i => head (m ((c : Thread nD τ).loc main_arg1)) (m ((c : Thread nD τ).loc main_arg2)) (i 1) (i 0) (i 2) := by
  have e : (V3 m ρ c main_v16 : S16x96x512.Idx → EReal) = headTerm (W2 m ρ c (Proc.devRef .tc main_v9)) := by
    show StableHlo.after hostOps1 (W2 m ρ c) (Proc.devRef .tc main_v16) = _
    after_results
    rfl
  rw [e, proj_found m ρ c]
  unfold headTerm
  funext i
  obtain ⟨b, h, f, rfl⟩ : ∃ (b : Fin 16) (h : Fin 96) (f : Fin 512), i = ix3 b h f := ⟨i 0, i 1, i 2, eq_ix3 i⟩
  have hh := h.isLt; have hb := b.isLt
  refine (shapeCast_apply _ shapeCasts_S1536x512_S16x96x512 (ix3 b h f) (ix2 (⟨b.val * 96 + h.val, by omega⟩ : Fin 1536) f) (by
    rw [Shape.rowMajor_val_two, Shape.rowMajor_val_three]; rfl)).trans ?_
  refine (extractStridedSlice_apply ![1536, 0] _ slices_S3072x512_S1536x512_1536_0 (ix2 (⟨b.val * 96 + h.val, by omega⟩ : Fin 1536) f)
    (ix2 (⟨1536 + (b.val * 96 + h.val), by omega⟩ : Fin 3072) f) (fun a => by
      match a with
      | ⟨0, _⟩ => rfl
      | ⟨1, _⟩ => (show f.val = 0 + f.val; omega))).trans ?_
  exact proj_hi _ _ _ h b f _ rfl

/-- The two weights of the scores reach the scoring region as launched. -/
theorem wp_found (c : Dev nD) : V3 m ρ c main_arg4 = (m ((c : Thread nD τ).loc main_arg4)) := by
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results
  all_goals rfl
theorem bp_found (c : Dev nD) : V3 m ρ c main_arg5 = (m ((c : Thread nD τ).loc main_arg5)) := by
  show StableHlo.after hostOps1 (W2 m ρ c) (Proc.devRef .tc main_arg5) = _
  after_results
  rw [W2_of_ne m ρ c main_arg5 (by decide)]
  show StableHlo.after hostOps0 (W0 m ρ c) (Proc.devRef .tc main_arg5) = _
  after_results
  all_goals rfl

end Cert.KernelIdeal.Between

end
-- ==== Proof.ScoreBody.lean ====
/-
  The scoring region's body, read at an index.

  A point of the scoring region loads a block x0 of the dependents' projections (dd, b, e), a block x1 of the heads'
  projections (b, hh, e), the weight x2 (r, e) and the bias x3 r. Its scores at (dd, b, hh, r) are
    (sum over e of max (x0 (dd, b, e) + x1 (b, hh, e)) 0 * x2 (r, e)) + x3 r,
  and it stores, for each (dd, b, hh), the row of 129 entries made of the zero score followed by the 128 scores, each
  minus m + log (exp (0 - m) + sum over r of exp (score r - m)), with m the larger of 0 and the largest score.
-/
import proofs.«159628_j91199335563522_2_alg».proof.Proof.Gen.KernelIdeal.Frame
import proofs.«159628_j91199335563522_2_alg».proof.Proof.Spec
import proofs.«159628_j91199335563522_2_alg».proof.Proof.LibPlainProduct
import Idealize.ShloMosaic.Lib.ValueLayout
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.ScoreBody

open Cert.KernelIdeal Cert.KernelIdeal.Gen Idealize.ShloMosaic Idealize.ShloMosaic.ValueIdx Idealize.ShloMosaic.Tactic

/-! ## Layout operations of the body, read at an index -/

section Layout
variable {α : Type}

/-- A [16, 16, 512] array cast to [16, 16, 1, 512] reads, at (i, j, u, k), the operand at (i, j, k). -/
theorem cast_unit_axis2 (x : (⟨3, ![16, 16, 512]⟩ : Shape).Idx → α)
    (h : (⟨3, ![16, 16, 512]⟩ : Shape).ShapeCasts ⟨4, ![16, 16, 1, 512]⟩) (i j : Fin 16) (u : Fin 1) (k : Fin 512) :
    shapeCast ⟨4, ![16, 16, 1, 512]⟩ x h (ix4 i j u k) = x (ix3 i j k) :=
  shapeCast_apply x h _ _ (by
    have hu : u.val = 0 := by omega
    rw [Shape.rowMajor_val_four, Shape.rowMajor_val_three]
    show (i.val * 16 + j.val) * 512 + k.val = ((i.val * 16 + j.val) * 1 + u.val) * 512 + k.val
    rw [hu, Nat.mul_one, Nat.add_zero])

/-- A [16, 16, 1, 512] array broadcast to [16, 16, 16, 512] reads, at (i, j, l, k), the operand at (i, j, 0, k). -/
theorem bcast_axis2 (v : (⟨4, ![16, 16, 1, 512]⟩ : Shape).Idx → α)
    (h : (⟨4, ![16, 16, 1, 512]⟩ : Shape).Broadcasts ⟨4, ![16, 16, 16, 512]⟩) (i j l : Fin 16) (k : Fin 512) :
    broadcastTo ⟨4, ![16, 16, 16, 512]⟩ v h (ix4 i j l k) = v (ix4 i j (0 : Fin 1) k) := by
  refine broadcastTo_apply v h (ix4 i j l k) (ix4 i j (0 : Fin 1) k) fun ax => ?_
  match ax with
  | ⟨0, _⟩ => rfl
  | ⟨1, _⟩ => rfl
  | ⟨2, _⟩ => rfl
  | ⟨3, _⟩ => rfl

/-- A [1, 16, 16, 512] array broadcast to [16, 16, 16, 512] reads, at (i, j, l, k), the operand at (0, j, l, k). -/
theorem bcast_axis0 (v : (⟨4, ![1, 16, 16, 512]⟩ : Shape).Idx → α)
    (h : (⟨4, ![1, 16, 16, 512]⟩ : Shape).Broadcasts ⟨4, ![16, 16, 16, 512]⟩) (i j l : Fin 16) (k : Fin 512) :
    broadcastTo ⟨4, ![16, 16, 16, 512]⟩ v h (ix4 i j l k) = v (ix4 (0 : Fin 1) j l k) := by
  refine broadcastTo_apply v h (ix4 i j l k) (ix4 (0 : Fin 1) j l k) fun ax => ?_
  match ax with
  | ⟨0, _⟩ => rfl
  | ⟨1, _⟩ => rfl
  | ⟨2, _⟩ => rfl
  | ⟨3, _⟩ => rfl

/-- The row of the [4096, ·] matrices that holds the triple (i, j, l): (i * 16 + j) * 16 + l. -/
def row (i j l : Fin 16) : Fin 4096 := ⟨(i.val * 16 + j.val) * 16 + l.val, by have := i.isLt; have := j.isLt; have := l.isLt; omega⟩

/-- A [16, 16, 16, 512] array cast to [4096, 512] reads, at (row i j l, k), the operand at (i, j, l, k). -/
theorem cast_merge_rows (x : (⟨4, ![16, 16, 16, 512]⟩ : Shape).Idx → α)
    (h : (⟨4, ![16, 16, 16, 512]⟩ : Shape).ShapeCasts ⟨2, ![4096, 512]⟩) (i j l : Fin 16) (k : Fin 512) :
    shapeCast ⟨2, ![4096, 512]⟩ x h (ix2 (row i j l) k) = x (ix4 i j l k) :=
  shapeCast_apply x h _ _ (by
    rw [Shape.rowMajor_val_four, Shape.rowMajor_val_two]
    rfl)

/-- A [4096, 128] array cast to [16, 16, 16, 128] reads, at (i, j, l, k), the operand at (row i j l, k). -/
theorem cast_split_rows (x : (⟨2, ![4096, 128]⟩ : Shape).Idx → α)
    (h : (⟨2, ![4096, 128]⟩ : Shape).ShapeCasts ⟨4, ![16, 16, 16, 128]⟩) (i j l : Fin 16) (k : Fin 128) :
    shapeCast ⟨4, ![16, 16, 16, 128]⟩ x h (ix4 i j l k) = x (ix2 (row i j l) k) :=
  shapeCast_apply x h _ _ (by
    rw [Shape.rowMajor_val_four, Shape.rowMajor_val_two]
    rfl)

/-- A [16, 16, 16] array cast to [16, 16, 16, 1] reads, at (i, j, l, u), the operand at (i, j, l). -/
theorem cast_unit_axis3 (x : (⟨3, ![16, 16, 16]⟩ : Shape).Idx → α)
    (h : (⟨3, ![16, 16, 16]⟩ : Shape).ShapeCasts ⟨4, ![16, 16, 16, 1]⟩) (i j l : Fin 16) (u : Fin 1) :
    shapeCast ⟨4, ![16, 16, 16, 1]⟩ x h (ix4 i j l u) = x (ix3 i j l) :=
  shapeCast_apply x h _ _ (by
    have hu : u.val = 0 := by omega
    rw [Shape.rowMajor_val_four, Shape.rowMajor_val_three]
    show (i.val * 16 + j.val) * 16 + l.val = ((i.val * 16 + j.val) * 16 + l.val) * 1 + u.val
    rw [hu, Nat.mul_one, Nat.add_zero])

/-- A [16, 16, 16, 1] array broadcast to [16, 16, 16, 128] reads, at (i, j, l, k), the operand at (i, j, l, 0). -/
theorem bcast_axis3 (v : (⟨4, ![16, 16, 16, 1]⟩ : Shape).Idx → α)
    (h : (⟨4, ![16, 16, 16, 1]⟩ : Shape).Broadcasts ⟨4, ![16, 16, 16, 128]⟩) (i j l : Fin 16) (k : Fin 128) :
    broadcastTo ⟨4, ![16, 16, 16, 128]⟩ v h (ix4 i j l k) = v (ix4 i j l (0 : Fin 1)) := by
  refine broadcastTo_apply v h (ix4 i j l k) (ix4 i j l (0 : Fin 1)) fun ax => ?_
  match ax with
  | ⟨0, _⟩ => rfl
  | ⟨1, _⟩ => rfl
  | ⟨2, _⟩ => rfl
  | ⟨3, _⟩ => rfl

end Layout

/-! ## The constants of the body -/

/-- The zero word of the 16-bit format denotes 0. -/
theorem zero_bf16 : Ideal.ofBits .bf16 0x0000#16 = (0 : EReal) := by simp [Ideal.ofBits, Ideal.ieee]

/-- The word `0xFF800000` denotes `-∞`. -/
theorem neg_inf_eq_bot : Ideal.ofBits .f32 0xFF800000#32 = (⊥ : EReal) := by simp [Ideal.ofBits, Ideal.ieee]

/-! ## The scores -/

/-- The scores of one block: from the loaded dependents' block x0 (dd, b, e), heads' block x1 (b, hh, e), weight x2 (r, e)
    and bias x3 r. -/
def blockScore (x0 x1 : Vec Ideal S16x16x512 .f32) (x2 : Vec Ideal S128x512 .f32) (x3 : Vec Ideal S128 .f32)
    (dd b hh : Fin 16) (r : Fin 128) : EReal :=
  (∑ e : Fin 512, max (x0 (ix3 dd b e) + x1 (ix3 b hh e)) 0 * x2 (ix2 r e)) + x3 (ix1 r)

/-- The product of the body contracts the merged rows' columns against the transposed weight's rows: a plain product. -/
theorem score_dims : dot_S4096x512_S512x128_S4096x128_1_0_0_1_n_n = DotDims.plain 4096 512 128 := rfl

/-- The [16, 16, 16, 128] scores of the body at (dd, b, hh, r). -/
theorem scores_apply (x0 x1 : Vec Ideal S16x16x512 .f32) (x2 : Vec Ideal S128x512 .f32) (x3 : Vec Ideal S128 .f32)
    (dd b hh : Fin 16) (r : Fin 128) :
    k1_pay2 (F := Ideal) x0 x1 x2 x3 (ix4 dd b hh r) = blockScore x0 x1 x2 x3 dd b hh r := by
  unfold k1_pay2 blockScore
  refine (cast_split_rows _ shapeCasts_S4096x128_S16x16x16x128 dd b hh r).trans ?_
  refine congrArg₂ (· + ·) ?_ ?_
  · refine (PlainProduct.matmul_zero_apply _ score_dims none _ _ (row dd b hh) r).trans ?_
    refine Finset.sum_congr rfl fun e _ => ?_
    refine congrArg₂ (· * ·) ?_ ?_
    · refine (cast_merge_rows _ shapeCasts_S16x16x16x512_S4096x512 dd b hh e).trans ?_
      refine congrArg₂ max (congrArg₂ (· + ·) ?_ ?_) zero_bf16
      · refine (bcast_axis2 _ broadcasts_S16x16x1x512_S16x16x16x512 dd b hh e).trans ?_
        refine (cast_unit_axis2 _ shapeCasts_S16x16x512_S16x16x1x512 dd b (0 : Fin 1) e).trans ?_
        exact congrFun (shapeCast_self x0 shapeCasts_S16x16x512_S16x16x512) (ix3 dd b e)
      · refine (bcast_axis0 _ broadcasts_S1x16x16x512_S16x16x16x512 dd b hh e).trans ?_
        refine (shapeCast_abc_1abc_apply _ shapeCasts_S16x16x512_S1x16x16x512 (0 : Fin 1) b hh e).trans ?_
        exact congrFun (shapeCast_self x1 shapeCasts_S16x16x512_S16x16x512) (ix3 b hh e)
    · exact transpose_ix2_apply _ transposes_S128x512_p1_0_S512x128 e r
  · refine (broadcastTo_1b_ab_apply _ broadcasts_S1x128_S4096x128 (row dd b hh) r).trans ?_
    exact shapeCast_a_1a_apply x3 shapeCasts_S128_S1x128 (0 : Fin 1) r

/-! ## The row's normalizer -/

/-- The larger of 0 and the largest of a row's 128 scores. -/
def rowMax (s : Fin 128 → EReal) : EReal := max ((Finset.univ : Finset (Fin 128)).fold max (⊥ : EReal) s) 0

/-- `m + log (exp (0 - m) + sum over r of exp (s r - m))` with `m` the row's `rowMax`: what the body subtracts from
    every entry of the row. -/
def rowLse (s : Fin 128 → EReal) : EReal :=
  rowMax s + Ideal.log (Ideal.exp (0 - rowMax s) + ∑ r : Fin 128, Ideal.exp (s r - rowMax s))

/-- The row as the specification writes it, over `rowLse`. -/
theorem rowKer_eq (s : Fin 128 → EReal) (k : Fin 129) :
    Cert.PairScores.rowKer s k
      = if h : k.val = 0 then 0 - rowLse s else s ⟨k.val - 1, by have := k.isLt; omega⟩ - rowLse s := rfl

/-- The reduced index (dd, b, hh) with the coordinate r put back on the last axis is (dd, b, hh, r). -/
theorem lift_eq (h : S16x16x16x128.Reduces [3] S16x16x16) (dd b hh : Fin 16) (r : Fin 128) :
    h.lift (ix3 dd b hh) r = ix4 dd b hh r :=
  funext fun a => Fin.ext (by
    match a with
    | ⟨0, _⟩ => rfl
    | ⟨1, _⟩ => rfl
    | ⟨2, _⟩ => rfl
    | ⟨3, _⟩ => rfl)

/-- The scalar zero word of the 32-bit format denotes 0. -/
theorem scalar_zero_f32 : Scalar.ofBits (F := Ideal) .f32 0x00000000#32 = (0 : EReal) := Ideal.ofBits_zero_f32

/-- The maximum over the last axis, from `-∞`, at (dd, b, hh): the fold of `max` from `⊥` over the row. -/
theorem rowfold_apply (v : FVec Ideal S16x16x16x128 .f32) (h : S16x16x16x128.Reduces [3] S16x16x16)
    (hφ : FKind.Formats .f32) (hacc : (0xFF800000#32 : BitVec FTy.f32.bits) = FKind.maximumf.neutral .f32 hφ) (dd b hh : Fin 16) :
    multiReduction (F := Ideal) .maximumf [3] S16x16x16 v 0xFF800000#32 h hφ hacc (ix3 dd b hh)
      = (Finset.univ : Finset (Fin 128)).fold max (⊥ : EReal) (fun r => v (ix4 dd b hh r)) := by
  refine (Ideal.multiReduction_maximumf_single v _ h hφ hacc (ix3 dd b hh)).trans ?_
  show (Finset.univ : Finset (Fin 128)).fold max (Ideal.ofBits .f32 0xFF800000#32) (fun r => v (h.lift (ix3 dd b hh) r)) = _
  rw [neg_inf_eq_bot]
  exact congrArg (fun f => (Finset.univ : Finset (Fin 128)).fold max (⊥ : EReal) f)
    (funext fun r => congrArg v (lift_eq h dd b hh r))

/-- The row's maximum against 0, kept on a unit last axis, at (dd, b, hh, u). -/
theorem vmax_apply (v : FVec Ideal S16x16x16x128 .f32) (h : S16x16x16x128.Reduces [3] S16x16x16)
    (hφ : FKind.Formats .f32) (hacc : (0xFF800000#32 : BitVec FTy.f32.bits) = FKind.maximumf.neutral .f32 hφ)
    (hc : S16x16x16.ShapeCasts S16x16x16x1) (dd b hh : Fin 16) (u : Fin 1) :
    maximumf (shapeCast S16x16x16x1 (multiReduction (F := Ideal) .maximumf [3] S16x16x16 v 0xFF800000#32 h hφ hacc) hc)
        (broadcast S16x16x16x1 (Scalar.ofBits (F := Ideal) .f32 0x00000000#32)) (ix4 dd b hh u)
      = rowMax (fun r => v (ix4 dd b hh r)) := by
  unfold rowMax
  rw [maximumf_apply, broadcast_apply, scalar_zero_f32]
  refine congrArg (max · (0 : EReal)) ?_
  refine (cast_unit_axis3 _ hc dd b hh u).trans ?_
  exact rowfold_apply v h hφ hacc dd b hh

/-- The sum over the last axis of the exponentials of the scores minus a per-row value `m`, at (dd, b, hh). -/
theorem sumexp_apply (v : FVec Ideal S16x16x16x128 .f32) (m : FVec Ideal S16x16x16x1 .f32)
    (h : S16x16x16x128.Reduces [3] S16x16x16) (hb : S16x16x16x1.Broadcasts S16x16x16x128)
    (hφ : FKind.Formats .f32) (hacc : (0x00000000#32 : BitVec FTy.f32.bits) = FKind.add.neutral .f32 hφ) (dd b hh : Fin 16) :
    multiReduction (F := Ideal) .add [3] S16x16x16 (exp (subf v (broadcastTo S16x16x16x128 m hb))) 0x00000000#32 h hφ hacc
        (ix3 dd b hh)
      = ∑ r : Fin 128, Ideal.exp (v (ix4 dd b hh r) - m (ix4 dd b hh (0 : Fin 1))) := by
  refine (Ideal.multiReduction_add_single _ _ h hφ hacc (ix3 dd b hh)).trans ?_
  refine Finset.sum_congr rfl fun r _ => ?_
  refine (congrArg (exp (subf v (broadcastTo S16x16x16x128 m hb))) (lift_eq h dd b hh r)).trans ?_
  exact congrArg Ideal.exp (congrArg (v (ix4 dd b hh r) - ·) (bcast_axis3 m hb dd b hh r))

/-- The body's per-row maximum against 0, as a function of the scores. -/
def vmaxT (v : FVec Ideal S16x16x16x128 .f32) : FVec Ideal S16x16x16x1 .f32 :=
  maximumf (shapeCast S16x16x16x1 (multiReduction (F := Ideal) .maximumf [3] S16x16x16 v 0xFF800000#32
      reduces_S16x16x16x128_S16x16x16 (.inl rfl) rfl) shapeCasts_S16x16x16_S16x16x16x1)
    (broadcast S16x16x16x1 (Scalar.ofBits (F := Ideal) .f32 0x00000000#32))

/-- The body's per-row sum of exponentials of the scores minus a per-row value, on a unit last axis. -/
def vsumT (v : FVec Ideal S16x16x16x128 .f32) (m : FVec Ideal S16x16x16x1 .f32) : FVec Ideal S16x16x16x1 .f32 :=
  shapeCast S16x16x16x1 (multiReduction (F := Ideal) .add [3] S16x16x16
      (exp (subf v (broadcastTo S16x16x16x128 m broadcasts_S16x16x16x1_S16x16x16x128))) 0x00000000#32
      reduces_S16x16x16x128_S16x16x16 (.inl rfl) rfl) shapeCasts_S16x16x16_S16x16x16x1

/-- What the body subtracts, as a function of the scores `v`: `m + log (exp (0 - m) + sum)` entry by entry. -/
def vlseT (v : FVec Ideal S16x16x16x128 .f32) : FVec Ideal S16x16x16x1 .f32 :=
  addf (vmaxT v) (log (addf (exp (subf (broadcast S16x16x16x1 (Scalar.ofBits (F := Ideal) .f32 0x00000000#32)) (vmaxT v)))
    (vsumT v (vmaxT v))))

/-- The body's normalizer is that function of its scores. -/
theorem pay3_eq (x0 x1 : Vec Ideal S16x16x512 .f32) (x2 : Vec Ideal S128x512 .f32) (x3 : Vec Ideal S128 .f32) :
    k1_pay3 (F := Ideal) x0 x1 x2 x3 = vlseT (k1_pay2 (F := Ideal) x0 x1 x2 x3) := rfl

/-- An exponential, and a logarithm, taken entry by entry. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The per-row maximum against 0 at (dd, b, hh, u). -/
theorem vmaxT_apply (v : FVec Ideal S16x16x16x128 .f32) (dd b hh : Fin 16) (u : Fin 1) :
    vmaxT v (ix4 dd b hh u) = rowMax (fun r => v (ix4 dd b hh r)) :=
  vmax_apply v _ _ _ _ dd b hh u

/-- The per-row sum of exponentials at (dd, b, hh, u). -/
theorem vsumT_apply (v : FVec Ideal S16x16x16x128 .f32) (m : FVec Ideal S16x16x16x1 .f32) (dd b hh : Fin 16) (u : Fin 1) :
    vsumT v m (ix4 dd b hh u) = ∑ r : Fin 128, Ideal.exp (v (ix4 dd b hh r) - m (ix4 dd b hh (0 : Fin 1))) :=
  (cast_unit_axis3 _ shapeCasts_S16x16x16_S16x16x16x1 dd b hh u).trans (sumexp_apply v m _ _ _ _ dd b hh)

/-- That function at (dd, b, hh, u): `rowLse` of the row of scores at (dd, b, hh). -/
theorem vlseT_apply (v : FVec Ideal S16x16x16x128 .f32) (dd b hh : Fin 16) (u : Fin 1) :
    vlseT v (ix4 dd b hh u) = rowLse (fun r => v (ix4 dd b hh r)) := by
  unfold vlseT rowLse
  rw [addf_apply, log_apply, addf_apply, exp_apply, subf_apply, broadcast_apply, scalar_zero_f32, vsumT_apply, vmaxT_apply,
    vmaxT_apply]

/-- What the body subtracts, at (dd, b, hh, u): `rowLse` of the row of scores at (dd, b, hh). -/
theorem pay3_apply (x0 x1 : Vec Ideal S16x16x512 .f32) (x2 : Vec Ideal S128x512 .f32) (x3 : Vec Ideal S128 .f32)
    (dd b hh : Fin 16) (u : Fin 1) :
    k1_pay3 (F := Ideal) x0 x1 x2 x3 (ix4 dd b hh u)
      = rowLse (fun r => k1_pay2 (F := Ideal) x0 x1 x2 x3 (ix4 dd b hh r)) :=
  (congrFun (pay3_eq x0 x1 x2 x3) (ix4 dd b hh u)).trans (vlseT_apply _ dd b hh u)

/-- The zero score's entry, at (dd, b, hh, u): 0 minus what the body subtracts. -/
theorem pay4_apply (x0 x1 : Vec Ideal S16x16x512 .f32) (x2 : Vec Ideal S128x512 .f32) (x3 : Vec Ideal S128 .f32)
    (dd b hh : Fin 16) (u : Fin 1) :
    k1_pay4 (F := Ideal) x0 x1 x2 x3 (ix4 dd b hh u) = 0 - k1_pay3 (F := Ideal) x0 x1 x2 x3 (ix4 dd b hh u) := by
  unfold k1_pay4
  rw [subf_apply, broadcast_apply, scalar_zero_f32]

/-- A score's entry, at (dd, b, hh, r): the score minus the row's value on the unit axis. -/
theorem pay1_apply (v22 : FVec Ideal S16x16x16x128 .f32) (v37 : FVec Ideal S16x16x16x1 .f32) (dd b hh : Fin 16) (r : Fin 128) :
    k1_pay1 (F := Ideal) v22 v37 (ix4 dd b hh r) = v22 (ix4 dd b hh r) - v37 (ix4 dd b hh (0 : Fin 1)) := by
  unfold k1_pay1
  rw [subf_apply]
  exact congrArg (v22 (ix4 dd b hh r) - ·) (bcast_axis3 v37 _ dd b hh r)

/-- The row of scores of the body at (dd, b, hh) is `blockScore`'s. -/
theorem scores_row (x0 x1 : Vec Ideal S16x16x512 .f32) (x2 : Vec Ideal S128x512 .f32) (x3 : Vec Ideal S128 .f32)
    (dd b hh : Fin 16) :
    (fun r => k1_pay2 (F := Ideal) x0 x1 x2 x3 (ix4 dd b hh r)) = blockScore x0 x1 x2 x3 dd b hh :=
  funext fun r => scores_apply x0 x1 x2 x3 dd b hh r

/-- Column 0 of the stored row: the zero score's entry of the specification's row. -/
theorem row_zero (x0 x1 : Vec Ideal S16x16x512 .f32) (x2 : Vec Ideal S128x512 .f32) (x3 : Vec Ideal S128 .f32)
    (dd b hh : Fin 16) (k : Fin 129) (hk : k.val = 0) :
    k1_pay4 (F := Ideal) x0 x1 x2 x3 (ix4 dd b hh (0 : Fin 1))
      = Cert.PairScores.rowKer (blockScore x0 x1 x2 x3 dd b hh) k := by
  rw [rowKer_eq, dif_pos hk, pay4_apply, pay3_apply, scores_row]

/-- Columns 1 to 128 of the stored row: a score's entry of the specification's row. -/
theorem row_succ (x0 x1 : Vec Ideal S16x16x512 .f32) (x2 : Vec Ideal S128x512 .f32) (x3 : Vec Ideal S128 .f32)
    (dd b hh : Fin 16) (k : Fin 129) (hk : ¬k.val = 0) :
    k1_pay1 (F := Ideal) (k1_pay2 (F := Ideal) x0 x1 x2 x3) (k1_pay3 (F := Ideal) x0 x1 x2 x3)
        (ix4 dd b hh (⟨k.val - 1, by have := k.isLt; omega⟩ : Fin 128))
      = Cert.PairScores.rowKer (blockScore x0 x1 x2 x3 dd b hh) k := by
  rw [rowKer_eq, dif_neg hk, pay1_apply, pay3_apply, scores_row, scores_apply]

/-! ## The output block -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

section Canon
variable {Val : EltTy → Type} [∀ e, Nonempty (Val e)]

/-- Of the two stored pieces — columns 1 to 128 (stored last) and column 0 — an index in column 0 lies in the second only,
    at its local index (dd, b, hh, 0). -/
theorem canon_col_zero
    (inb1 : ∀ a, (![0, 0, 0, 1] : Fin 4 → Nat) a + (![16, 16, 16, 128] : Fin 4 → Nat) a ≤ S16x16x16x129.size a)
    (inb0 : ∀ a, (![0, 0, 0, 0] : Fin 4 → Nat) a + (![16, 16, 16, 1] : Fin 4 → Nat) a ≤ S16x16x16x129.size a)
    (w1 : (⟨4, ![16, 16, 16, 128]⟩ : Shape).Idx → Val .f32) (w0 : (⟨4, ![16, 16, 16, 1]⟩ : Shape).Idx → Val .f32)
    (dd b hh : Fin 16) (k : Fin 129) (hk : k.val = 0) :
    View.canon [(⟨Rect.unit (s := S16x16x16x129) ![0, 0, 0, 1] ![16, 16, 16, 128] inb1, w1⟩ : View.Piece Val S16x16x16x129 .f32),
        ⟨Rect.unit (s := S16x16x16x129) ![0, 0, 0, 0] ![16, 16, 16, 1] inb0, w0⟩] (ix4 dd b hh k)
      = w0 (ix4 dd b hh (0 : Fin 1)) := by
  have hnot : ix4 dd b hh k ∉ (Rect.unit (s := S16x16x16x129) ![0, 0, 0, 1] ![16, 16, 16, 128] inb1).set := by
    rw [Rect.mem_set_unit]
    intro h
    have h3 : (1 : ℕ) ≤ k.val := (h (3 : Fin 4)).1
    omega
  have e : ix4 dd b hh k = (Rect.unit (s := S16x16x16x129) ![0, 0, 0, 0] ![16, 16, 16, 1] inb0).emb (ix4 dd b hh (0 : Fin 1)) :=
    funext fun a => Fin.ext (by
      match a with
      | ⟨0, _⟩ => show dd.val = 0 + 1 * dd.val; omega
      | ⟨1, _⟩ => show b.val = 0 + 1 * b.val; omega
      | ⟨2, _⟩ => show hh.val = 0 + 1 * hh.val; omega
      | ⟨3, _⟩ => show k.val = 0 + 1 * 0; omega)
  refine (View.canon_cons_of_not_mem
    (⟨Rect.unit (s := S16x16x16x129) ![0, 0, 0, 1] ![16, 16, 16, 128] inb1, w1⟩ : View.Piece Val S16x16x16x129 .f32)
    [(⟨Rect.unit (s := S16x16x16x129) ![0, 0, 0, 0] ![16, 16, 16, 1] inb0, w0⟩ : View.Piece Val S16x16x16x129 .f32)] hnot).trans ?_
  refine (congrArg (View.canon
    [(⟨Rect.unit (s := S16x16x16x129) ![0, 0, 0, 0] ![16, 16, 16, 1] inb0, w0⟩ : View.Piece Val S16x16x16x129 .f32)]) e).trans ?_
  exact View.canon_cons_emb (Rect.unit (s := S16x16x16x129) ![0, 0, 0, 0] ![16, 16, 16, 1] inb0) w0 [] (ix4 dd b hh (0 : Fin 1))

/-- An index in columns 1 to 128 lies in the first piece, at its local index (dd, b, hh, k - 1). -/
theorem canon_col_succ
    (inb1 : ∀ a, (![0, 0, 0, 1] : Fin 4 → Nat) a + (![16, 16, 16, 128] : Fin 4 → Nat) a ≤ S16x16x16x129.size a)
    (inb0 : ∀ a, (![0, 0, 0, 0] : Fin 4 → Nat) a + (![16, 16, 16, 1] : Fin 4 → Nat) a ≤ S16x16x16x129.size a)
    (w1 : (⟨4, ![16, 16, 16, 128]⟩ : Shape).Idx → Val .f32) (w0 : (⟨4, ![16, 16, 16, 1]⟩ : Shape).Idx → Val .f32)
    (dd b hh : Fin 16) (k : Fin 129) (hk : ¬k.val = 0) :
    View.canon [(⟨Rect.unit (s := S16x16x16x129) ![0, 0, 0, 1] ![16, 16, 16, 128] inb1, w1⟩ : View.Piece Val S16x16x16x129 .f32),
        ⟨Rect.unit (s := S16x16x16x129) ![0, 0, 0, 0] ![16, 16, 16, 1] inb0, w0⟩] (ix4 dd b hh k)
      = w1 (ix4 dd b hh (⟨k.val - 1, by have := k.isLt; omega⟩ : Fin 128)) := by
  have e : ix4 dd b hh k = (Rect.unit (s := S16x16x16x129) ![0, 0, 0, 1] ![16, 16, 16, 128] inb1).emb
      (ix4 dd b hh (⟨k.val - 1, by have := k.isLt; omega⟩ : Fin 128)) :=
    funext fun a => Fin.ext (by
      match a with
      | ⟨0, _⟩ => show dd.val = 0 + 1 * dd.val; omega
      | ⟨1, _⟩ => show b.val = 0 + 1 * b.val; omega
      | ⟨2, _⟩ => show hh.val = 0 + 1 * hh.val; omega
      | ⟨3, _⟩ => show k.val = 1 + 1 * (k.val - 1); omega)
  refine (congrArg (View.canon
    [(⟨Rect.unit (s := S16x16x16x129) ![0, 0, 0, 1] ![16, 16, 16, 128] inb1, w1⟩ : View.Piece Val S16x16x16x129 .f32),
      ⟨Rect.unit (s := S16x16x16x129) ![0, 0, 0, 0] ![16, 16, 16, 1] inb0, w0⟩]) e).trans ?_
  exact View.canon_cons_emb (Rect.unit (s := S16x16x16x129) ![0, 0, 0, 1] ![16, 16, 16, 128] inb1) w1
    [(⟨Rect.unit (s := S16x16x16x129) ![0, 0, 0, 0] ![16, 16, 16, 1] inb0, w0⟩ : View.Piece Val S16x16x16x129 .f32)]
    (ix4 dd b hh (⟨k.val - 1, by have := k.isLt; omega⟩ : Fin 128))

end Canon

/-- What the body leaves in the output block at (dd, b, hh, k), k : Fin 129: the kernel's row form of the block's scores. -/
theorem block_apply (c : Dev nD) (i : grid1.Coords) (arg2 : Memref sig .tc .vmem S16x16x512 .f32) (harg2 : arg2.IsWhole) (arg3 : Memref sig .tc .vmem S16x16x512 .f32) (harg3 : arg3.IsWhole) (arg4 : Memref sig .tc .vmem S128x512 .f32) (harg4 : arg4.IsWhole) (arg5 : Memref sig .tc .vmem S128 .f32) (harg5 : arg5.IsWhole) (arg6 : Memref sig .tc .vmem S16x16x16x129 .f32) (harg6 : arg6.IsWhole)
    (x0 : Vec Ideal S16x16x512 .f32) (x1 : Vec Ideal S16x16x512 .f32) (x2 : Vec Ideal S128x512 .f32) (x3 : Vec Ideal S128 .f32)
    (dd b hh : Fin 16) (k : Fin 129) :
    out1_A_4 (F := Ideal) c i arg2 harg2 arg3 harg3 arg4 harg4 arg5 harg5 arg6 harg6 x0 x1 x2 x3 (ix4 dd b hh k)
      = Cert.PairScores.rowKer (blockScore x0 x1 x2 x3 dd b hh) k := by
  unfold out1_A_4
  rw [View.read_writes_eq_canon _ _ _ (cover1_A_4 c i arg2 harg2 arg3 harg3 arg4 harg4 arg5 harg5 arg6 harg6 x0 x1 x2 x3)]
  unfold kernelRun1_A
  dsimp only
  sl_unfold_words
  simp only [View.readAt_eq_ld, harg2.read_unread, harg3.read_unread, harg4.read_unread, harg5.read_unread,
    View.ld_unit_zero (S := S16x16x512) hz3, View.ld_unit_zero (S := S128x512) hz2, View.ld_unit_zero (S := S128) hz1]
  by_cases hk : k.val = 0
  · exact (canon_col_zero _ _ _ _ dd b hh k hk).trans (row_zero x0 x1 x2 x3 dd b hh k hk)
  · exact (canon_col_succ _ _ _ _ dd b hh k hk).trans (row_succ x0 x1 x2 x3 dd b hh k hk)

end Cert.KernelIdeal.ScoreBody

end
-- ==== Proof.ScoreValue.lean ====
/-
  The scoring region: what its output array holds after the region.

  The region's 36 points (i, j), i, j < 6, each take the block of 16 dependents i of the [96, 16, 512] dependents' projection,
  the block of 16 heads j of the [16, 96, 512] heads' projection, and the whole relation weight and bias, and write back the
  [16, 16, 16, 129] block (i, j) of the result.  The 36 blocks tile the result, so after the region the result array holds, at
  (d, b, h, k), the log-softmax entry k of the row of scores of (d, b, h), whatever the region found in the operand arrays.
-/
import proofs.«159628_j91199335563522_2_alg».proof.Proof.Gen.KernelIdeal.Frame
import proofs.«159628_j91199335563522_2_alg».proof.Proof.Spec
import Idealize.ShloMosaic.Lib.Pipeline.Value
import Idealize.ShloMosaic.Lib.ValueIdx

set_option maxRecDepth 16384

noncomputable section

open scoped BigOperators

namespace Cert.KernelIdeal.ScoreValue

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The kernel's score of relation r for (d, b, h), from the arrays the scoring region finds. -/
def kerScore (A14 : S96x16x512.Idx → EReal) (A16 : S16x96x512.Idx → EReal) (A4 : S128x512.Idx → EReal) (A5 : S128.Idx → EReal)
    (d : Fin 96) (b : Fin 16) (h : Fin 96) (r : Fin 128) : EReal :=
  (∑ e : Fin 512, max (A14 (ix3 d b e) + A16 (ix3 b h e)) 0 * A4 (ix2 r e)) + A5 (ix1 r)

/-- The result array as the kernel computes it. -/
def kerResult (A14 : S96x16x512.Idx → EReal) (A16 : S16x96x512.Idx → EReal) (A4 : S128x512.Idx → EReal) (A5 : S128.Idx → EReal) :
    S96x16x96x129.Idx → EReal :=
  fun i => Cert.PairScores.rowKer (kerScore A14 A16 A4 A5 (i 0) (i 1) (i 2)) (i 3)

/-- The printed index maps over the grid, point t = 6 i + j: the dependents' block is i, the heads' block is j, the relation
    weight and bias are whole, and the result's block is (i, 0, j, 0). -/
theorem idx_facts : ∀ t : Fin cfg1.N,
    win1_0.index t (0 : Fin 3) = t.val / 6 ∧ win1_0.index t (1 : Fin 3) = 0 ∧ win1_0.index t (2 : Fin 3) = 0
    ∧ win1_1.index t (0 : Fin 3) = 0 ∧ win1_1.index t (1 : Fin 3) = t.val % 6 ∧ win1_1.index t (2 : Fin 3) = 0
    ∧ win1_2.index t (0 : Fin 2) = 0 ∧ win1_2.index t (1 : Fin 2) = 0
    ∧ win1_3.index t (0 : Fin 1) = 0
    ∧ win1_4.index t (0 : Fin 4) = t.val / 6 ∧ win1_4.index t (1 : Fin 4) = 0
    ∧ win1_4.index t (2 : Fin 4) = t.val % 6 ∧ win1_4.index t (3 : Fin 4) = 0 :=
  (by decide +kernel : ∀ t : Fin grid1.N, _)

variable (V : (c : Dev nD) → (b : Ref sig .tc) → Buf (Elt Ideal) ((c : Thread nD τ).loc b))

/-- What point t = 6 i + j writes back is block (i, j) of the kernel's result of the operand arrays as the region finds them:
    the block's entry (dd, b, hh, k) is the result at (16 i + dd, b, 16 j + hh, k). -/
theorem flushed_eq
    (hblock : ∀ (c : Dev nD) (i : grid1.Coords)
      (arg2 : Memref sig .tc .vmem S16x16x512 .f32) (harg2 : arg2.IsWhole)
      (arg3 : Memref sig .tc .vmem S16x16x512 .f32) (harg3 : arg3.IsWhole)
      (arg4 : Memref sig .tc .vmem S128x512 .f32) (harg4 : arg4.IsWhole)
      (arg5 : Memref sig .tc .vmem S128 .f32) (harg5 : arg5.IsWhole)
      (arg6 : Memref sig .tc .vmem S16x16x16x129 .f32) (harg6 : arg6.IsWhole)
      (x0 x1 : Vec Ideal S16x16x512 .f32) (x2 : Vec Ideal S128x512 .f32) (x3 : Vec Ideal S128 .f32)
      (dd b hh : Fin 16) (k : Fin 129),
      out1_A_4 (F := Ideal) c i arg2 harg2 arg3 harg3 arg4 harg4 arg5 harg5 arg6 harg6 x0 x1 x2 x3 (ix4 dd b hh k)
        = Cert.PairScores.rowKer (fun r => (∑ e : Fin 512, max (x0 (ix3 dd b e) + x1 (ix3 b hh e)) 0 * x2 (ix2 r e)) + x3 (ix1 r)) k)
    (c : Dev nD) (t : Fin cfg1.N) :
    (dat1 V c).flushed 4 t = ((cfg1.win 4).blk t).view.read (Elt Ideal)
      (kerResult (V c main_v14) (V c main_v16) (V c main_arg4) (V c main_arg5)) := by
  show (cfg1.win 4).cut (grid1.coords t) ((dat1 V c).after 4 t) = _
  rw [after1_4]
  unfold outsAt1
  obtain ⟨a00, a01, a02, a10, a11, a12, a20, a21, a30, a40, a41, a42, a43⟩ := idx_facts t
  have ht : t.val < 36 := lt_of_lt_of_eq t.isLt (N_1 : cfg1.N = 36)
  funext j
  obtain ⟨dd, b, hh, k, rfl⟩ : ∃ (dd : Fin 16) (b : Fin 16) (hh : Fin 16) (k : Fin 129), j = ix4 dd b hh k :=
    ⟨j 0, j 1, j 2, j 3, eq_ix4 j⟩
  have hdd : dd.val < 16 := dd.isLt
  have hb : b.val < 16 := b.isLt
  have hhh : hh.val < 16 := hh.isLt
  have hk : k.val < 129 := k.isLt
  -- the dependent and the head the block's entry belongs to
  obtain ⟨D, hD⟩ : ∃ D : Fin 96, D.val = t.val / 6 * 16 + dd.val := ⟨⟨t.val / 6 * 16 + dd.val, by omega⟩, rfl⟩
  obtain ⟨H, hH⟩ : ∃ H : Fin 96, H.val = t.val % 6 * 16 + hh.val := ⟨⟨t.val % 6 * 16 + hh.val, by omega⟩, rfl⟩
  refine (hblock c (grid1.coords t) (ms1_0 t) (hs1_0 t) (ms1_1 t) (hs1_1 t) (ms1_2 t) (hs1_2 t) (ms1_3 t) (hs1_3 t)
    (ms1_4 t) (hs1_4 t) (iblk1 V c 0 t) (iblk1 V c 1 t) (iblk1 V c 2 t) (iblk1 V c 3 t) dd b hh k).trans ?_
  have hR : ((cfg1.win 4).blk t).view.emb (ix4 dd b hh k) = ix4 D b H k := by
    funext a; apply Fin.ext
    match a with
    | ⟨0, _⟩ => show win1_4.index t (0 : Fin 4) * 16 + 1 * dd.val = D.val; omega
    | ⟨1, _⟩ => show win1_4.index t (1 : Fin 4) * 16 + 1 * b.val = b.val; omega
    | ⟨2, _⟩ => show win1_4.index t (2 : Fin 4) * 16 + 1 * hh.val = H.val; omega
    | ⟨3, _⟩ => show win1_4.index t (3 : Fin 4) * 129 + 1 * k.val = k.val; omega
  show _ = kerResult (V c main_v14) (V c main_v16) (V c main_arg4) (V c main_arg5) (((cfg1.win 4).blk t).view.emb (ix4 dd b hh k))
  rw [hR]
  show Cert.PairScores.rowKer _ k
    = Cert.PairScores.rowKer (kerScore (V c main_v14) (V c main_v16) (V c main_arg4) (V c main_arg5) D b H) k
  refine congrArg (fun s => Cert.PairScores.rowKer s k) (funext fun r => ?_)
  unfold kerScore
  have hr : r.val < 128 := r.isLt
  have h3 : iblk1 V c 3 t (ix1 r) = V c main_arg5 (ix1 r) := by
    show V c main_arg5 (((cfg1.win 3).blk t).view.emb (ix1 r)) = V c main_arg5 (ix1 r)
    refine congrArg (V c main_arg5) (funext fun a => Fin.ext ?_)
    match a with
    | ⟨0, _⟩ => show win1_3.index t (0 : Fin 1) * 128 + 1 * r.val = r.val; omega
  have h0 : ∀ e : Fin 512, iblk1 V c 0 t (ix3 dd b e) = V c main_v14 (ix3 D b e) := by
    intro e
    have he : e.val < 512 := e.isLt
    show V c main_v14 (((cfg1.win 0).blk t).view.emb (ix3 dd b e)) = V c main_v14 (ix3 D b e)
    refine congrArg (V c main_v14) (funext fun a => Fin.ext ?_)
    match a with
    | ⟨0, _⟩ => show win1_0.index t (0 : Fin 3) * 16 + 1 * dd.val = D.val; omega
    | ⟨1, _⟩ => show win1_0.index t (1 : Fin 3) * 16 + 1 * b.val = b.val; omega
    | ⟨2, _⟩ => show win1_0.index t (2 : Fin 3) * 512 + 1 * e.val = e.val; omega
  have h1 : ∀ e : Fin 512, iblk1 V c 1 t (ix3 b hh e) = V c main_v16 (ix3 b H e) := by
    intro e
    have he : e.val < 512 := e.isLt
    show V c main_v16 (((cfg1.win 1).blk t).view.emb (ix3 b hh e)) = V c main_v16 (ix3 b H e)
    refine congrArg (V c main_v16) (funext fun a => Fin.ext ?_)
    match a with
    | ⟨0, _⟩ => show win1_1.index t (0 : Fin 3) * 16 + 1 * b.val = b.val; omega
    | ⟨1, _⟩ => show win1_1.index t (1 : Fin 3) * 16 + 1 * hh.val = H.val; omega
    | ⟨2, _⟩ => show win1_1.index t (2 : Fin 3) * 512 + 1 * e.val = e.val; omega
  have h2 : ∀ e : Fin 512, iblk1 V c 2 t (ix2 r e) = V c main_arg4 (ix2 r e) := by
    intro e
    have he : e.val < 512 := e.isLt
    show V c main_arg4 (((cfg1.win 2).blk t).view.emb (ix2 r e)) = V c main_arg4 (ix2 r e)
    refine congrArg (V c main_arg4) (funext fun a => Fin.ext ?_)
    match a with
    | ⟨0, _⟩ => show win1_2.index t (0 : Fin 2) * 128 + 1 * r.val = r.val; omega
    | ⟨1, _⟩ => show win1_2.index t (1 : Fin 2) * 512 + 1 * e.val = e.val; omega
  rw [h3]
  exact congrArg (· + V c main_arg5 (ix1 r)) (Finset.sum_congr rfl fun e _ => by rw [h0 e, h1 e, h2 e])

/-- An index of the result array is in point t's block iff each coordinate is in the block's range on its axis. -/
theorem mem_blk (t : Fin cfg1.N) (i : S96x16x96x129.Idx) :
    i ∈ ((cfg1.win 4).blk t).view.set ↔ ∀ a : Fin 4, win1_4.index t a * S16x16x16x129.size a ≤ (i a).val
      ∧ (i a).val < win1_4.index t a * S16x16x16x129.size a + S16x16x16x129.size a := by
  show i ∈ ((View.whole main_v17).slice (win1_4.rect t)).set ↔ _
  rw [View.set_slice_whole, Rect.mem_set_unit]
  exact Iff.rfl

/-- Every index (d, b, h, k) of the result array is in the block of the point 6 ⌊d / 16⌋ + ⌊h / 16⌋. -/
theorem cover (i : S96x16x96x129.Idx) :
    ∃ t : Fin cfg1.N, (cfg1.win 4).flush t = true ∧ i ∈ ((cfg1.win 4).blk t).view.set := by
  have hi0 : (i 0).val < 96 := (i 0).isLt
  have hi1 : (i 1).val < 16 := (i 1).isLt
  have hi2 : (i 2).val < 96 := (i 2).isLt
  have hi3 : (i 3).val < 129 := (i 3).isLt
  have hN : (i 0).val / 16 * 6 + (i 2).val / 16 < cfg1.N :=
    lt_of_lt_of_eq (by omega : (i 0).val / 16 * 6 + (i 2).val / 16 < 36) (N_1 : cfg1.N = 36).symm
  refine ⟨⟨(i 0).val / 16 * 6 + (i 2).val / 16, hN⟩, flush1_4 _, ?_⟩
  rw [mem_blk]
  obtain ⟨-, -, -, -, -, -, -, -, -, e0, e1, e2, e3⟩ := idx_facts ⟨(i 0).val / 16 * 6 + (i 2).val / 16, hN⟩
  intro a
  match a with
  | ⟨0, _⟩ =>
    show win1_4.index ⟨(i 0).val / 16 * 6 + (i 2).val / 16, hN⟩ (0 : Fin 4) * 16 ≤ (i 0).val
      ∧ (i 0).val < win1_4.index ⟨(i 0).val / 16 * 6 + (i 2).val / 16, hN⟩ (0 : Fin 4) * 16 + 16
    rw [e0]
    show ((i 0).val / 16 * 6 + (i 2).val / 16) / 6 * 16 ≤ (i 0).val
      ∧ (i 0).val < ((i 0).val / 16 * 6 + (i 2).val / 16) / 6 * 16 + 16
    omega
  | ⟨1, _⟩ =>
    show win1_4.index ⟨(i 0).val / 16 * 6 + (i 2).val / 16, hN⟩ (1 : Fin 4) * 16 ≤ (i 1).val
      ∧ (i 1).val < win1_4.index ⟨(i 0).val / 16 * 6 + (i 2).val / 16, hN⟩ (1 : Fin 4) * 16 + 16
    rw [e1]; omega
  | ⟨2, _⟩ =>
    show win1_4.index ⟨(i 0).val / 16 * 6 + (i 2).val / 16, hN⟩ (2 : Fin 4) * 16 ≤ (i 2).val
      ∧ (i 2).val < win1_4.index ⟨(i 0).val / 16 * 6 + (i 2).val / 16, hN⟩ (2 : Fin 4) * 16 + 16
    rw [e2]
    show ((i 0).val / 16 * 6 + (i 2).val / 16) % 6 * 16 ≤ (i 2).val
      ∧ (i 2).val < ((i 0).val / 16 * 6 + (i 2).val / 16) % 6 * 16 + 16
    omega
  | ⟨3, _⟩ =>
    show win1_4.index ⟨(i 0).val / 16 * 6 + (i 2).val / 16, hN⟩ (3 : Fin 4) * 129 ≤ (i 3).val
      ∧ (i 3).val < win1_4.index ⟨(i 0).val / 16 * 6 + (i 2).val / 16, hN⟩ (3 : Fin 4) * 129 + 129
    rw [e3]; omega

/-- The result array after the region: the kernel's result of the operand arrays as the region found them. -/
theorem final
    (hblock : ∀ (c : Dev nD) (i : grid1.Coords)
      (arg2 : Memref sig .tc .vmem S16x16x512 .f32) (harg2 : arg2.IsWhole)
      (arg3 : Memref sig .tc .vmem S16x16x512 .f32) (harg3 : arg3.IsWhole)
      (arg4 : Memref sig .tc .vmem S128x512 .f32) (harg4 : arg4.IsWhole)
      (arg5 : Memref sig .tc .vmem S128 .f32) (harg5 : arg5.IsWhole)
      (arg6 : Memref sig .tc .vmem S16x16x16x129 .f32) (harg6 : arg6.IsWhole)
      (x0 x1 : Vec Ideal S16x16x512 .f32) (x2 : Vec Ideal S128x512 .f32) (x3 : Vec Ideal S128 .f32)
      (dd b hh : Fin 16) (k : Fin 129),
      out1_A_4 (F := Ideal) c i arg2 harg2 arg3 harg3 arg4 harg4 arg5 harg5 arg6 harg6 x0 x1 x2 x3 (ix4 dd b hh k)
        = Cert.PairScores.rowKer (fun r => (∑ e : Fin 512, max (x0 (ix3 dd b e) + x1 (ix3 b hh e)) 0 * x2 (ix2 r e)) + x3 (ix1 r)) k)
    (c : Dev nD) :
    (dat1 V c).arrAt 4 cfg1.N = kerResult (V c main_v14) (V c main_v16) (V c main_arg4) (V c main_arg5) :=
  (dat1 V c).arrAt_eq_of_cover 4 _ (fun t _ => flushed_eq V hblock c t) cover

end Cert.KernelIdeal.ScoreValue

end
-- ==== Proof.RowLaw.lean ====
/-
  Real-valuedness of the scores, and the row law: on a row of real scores the two ways of taking the
  log-softmax of the row "0 followed by the 128 scores" agree.

  Notation used in the comments: the row is x = (0, s 0, ..., s 127); M is its largest entry; every
  entry of s is the coercion of a real number.
-/
import proofs.«159628_j91199335563522_2_alg».proof.Proof.Spec

noncomputable section

open scoped BigOperators

namespace Cert.PairScores

open Idealize.ShloMosaic

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.max {x y : EReal} : IsReal x → IsReal y → IsReal (max x y) := by
  rintro ⟨a, rfl⟩ ⟨b, rfl⟩
  exact ⟨Max.max a b, (EReal.coe_strictMono.monotone.map_max).symm⟩

theorem IsReal.zero : IsReal (0 : EReal) := ⟨0, EReal.coe_zero.symm⟩

theorem IsReal.sum {ι : Type} (s : Finset ι) (f : ι → EReal) :
    (∀ i ∈ s, IsReal (f i)) → IsReal (∑ i ∈ s, f i) := by
  classical
  refine Finset.induction_on s ?_ ?_
  · intro _
    simpa using IsReal.zero
  · intro a t ha ih h
    rw [Finset.sum_insert ha]
    exact IsReal.add (h a (Finset.mem_insert_self a t))
      (ih (fun i hi => h i (Finset.mem_insert_of_mem hi)))

/-- With real inputs every score is a real number. -/
theorem score_isReal
    (x0 x1 : (⟨3, ![96, 16, 512]⟩ : Shape).Idx → EReal) (w : (⟨2, ![512, 1024]⟩ : Shape).Idx → EReal)
    (bt : (⟨1, ![512]⟩ : Shape).Idx → EReal) (wp : (⟨2, ![128, 512]⟩ : Shape).Idx → EReal)
    (bp : (⟨1, ![128]⟩ : Shape).Idx → EReal)
    (h0 : ∀ i, IsReal (x0 i)) (h1 : ∀ i, IsReal (x1 i)) (hw : ∀ i, IsReal (w i))
    (hbt : ∀ i, IsReal (bt i)) (hwp : ∀ i, IsReal (wp i)) (hbp : ∀ i, IsReal (bp i))
    (d : Fin 96) (b : Fin 16) (h : Fin 96) (r : Fin 128) :
    IsReal (score x0 x1 w bt wp bp d b h r) := by
  unfold score
  refine IsReal.add (IsReal.sum _ _ (fun e _ => IsReal.mul ?_ (hwp _))) (hbp _)
  unfold hid
  refine IsReal.max (IsReal.add (IsReal.add ?_ ?_) (hbt _)) IsReal.zero
  · unfold dep
    exact IsReal.sum _ _ (fun i _ => IsReal.mul (h0 _) (hw _))
  · unfold head
    exact IsReal.sum _ _ (fun i _ => IsReal.mul (h1 _) (hw _))

/-! ### The row with the zero score in front -/

/-- The first entry of the row is the zero score. -/
theorem withZero_zero (s : Fin 128 → EReal) : withZero s 0 = 0 := by
  simp [withZero]

/-- The entry after position r is the score s r. -/
theorem withZero_succ (s : Fin 128 → EReal) (r : Fin 128) : withZero s r.succ = s r := by
  unfold withZero
  have hne : ¬ (r.succ : Fin 129).val = 0 := by simp
  rw [dif_neg hne]
  congr 1

/-! ### The largest entry -/

/-- The largest entry of the 129-entry row is the larger of 0 and the largest of the 128 scores:
    split off the first entry and reindex the others by the successor map. -/
theorem fold_withZero (s : Fin 128 → EReal) :
    (Finset.univ : Finset (Fin 129)).fold max (⊥ : EReal) (withZero s)
      = max 0 ((Finset.univ : Finset (Fin 128)).fold max (⊥ : EReal) s) := by
  have hcomp : (withZero s ∘ ⇑(⟨Fin.succ, Fin.succ_injective _⟩ : Fin 128 ↪ Fin 129)) = s :=
    funext (withZero_succ s)
  rw [Fin.univ_succ, Finset.fold_cons, Finset.fold_map, withZero_zero, hcomp]

/-- The reference's M (the fold taken once more against -inf) is the kernel's m. -/
theorem refMax_eq (s : Fin 128 → EReal) :
    max (⊥ : EReal) ((Finset.univ : Finset (Fin 129)).fold max (⊥ : EReal) (withZero s))
      = max ((Finset.univ : Finset (Fin 128)).fold max (⊥ : EReal) s) 0 := by
  rw [max_bot_left, fold_withZero, max_comm]

/-- A maximum, started from -inf, of finitely many reals is -inf (no entries) or a real. -/
theorem fold_max_bot_or_isReal {ι : Type} (t : Finset ι) (f : ι → EReal) (hf : ∀ i, IsReal (f i)) :
    t.fold max (⊥ : EReal) f = ⊥ ∨ IsReal (t.fold max (⊥ : EReal) f) := by
  classical
  refine Finset.induction_on t ?_ ?_
  · left
    simp
  · intro a u ha ih
    rw [Finset.fold_insert ha]
    right
    rcases ih with h | h
    · rw [h, max_bot_right]
      exact hf a
    · exact IsReal.max (hf a) h

/-- Hence the larger of that maximum and 0 is a real number. -/
theorem isReal_max_fold_zero (s : Fin 128 → EReal) (hs : ∀ r, IsReal (s r)) :
    IsReal (max ((Finset.univ : Finset (Fin 128)).fold max (⊥ : EReal) s) 0) := by
  rcases fold_max_bot_or_isReal Finset.univ s hs with h | h
  · rw [h, max_bot_left]
    exact IsReal.zero
  · exact IsReal.max h IsReal.zero

/-! ### The sum of exponentials -/

/-- The sum over the 129 entries is the zero score's term plus the sum over the 128 scores. -/
theorem sum_withZero (s : Fin 128 → EReal) (M : EReal) :
    ∑ j : Fin 129, Ideal.exp (withZero s j - M)
      = Ideal.exp (0 - M) + ∑ r : Fin 128, Ideal.exp (s r - M) := by
  rw [Fin.sum_univ_succ, withZero_zero]
  simp only [withZero_succ]

/-- The coercion of a finite sum of reals is the sum of the coercions. -/
theorem coe_finsetSum {ι : Type} (t : Finset ι) (f : ι → ℝ) :
    ∑ i ∈ t, ((f i : ℝ) : EReal) = ((∑ i ∈ t, f i : ℝ) : EReal) := by
  classical
  refine Finset.induction_on t ?_ ?_
  · simp
  · intro a u ha ih
    rw [Finset.sum_insert ha, Finset.sum_insert ha, ih, EReal.coe_add]

/-- With real scores and a real M, the sum of exponentials is a positive real number. -/
theorem sumExp_real (σ : Fin 128 → ℝ) (μ : ℝ) :
    ∃ S : ℝ, 0 < S ∧
      Ideal.exp (0 - (μ : EReal)) + ∑ r : Fin 128, Ideal.exp ((σ r : EReal) - μ) = (S : EReal) := by
  refine ⟨Real.exp (0 - μ) + ∑ r : Fin 128, Real.exp (σ r - μ), ?_, ?_⟩
  · have h1 : 0 < Real.exp (0 - μ) := Real.exp_pos _
    have h2 : 0 ≤ ∑ r : Fin 128, Real.exp (σ r - μ) :=
      Finset.sum_nonneg (fun r _ => (Real.exp_pos _).le)
    linarith
  · have e0 : Ideal.exp (0 - (μ : EReal)) = ((Real.exp (0 - μ) : ℝ) : EReal) := by
      rw [← EReal.coe_zero, ← EReal.coe_sub]
      exact Ideal.exp_coe _
    have e1 : ∀ r, Ideal.exp ((σ r : EReal) - μ) = ((Real.exp (σ r - μ) : ℝ) : EReal) := by
      intro r
      rw [← EReal.coe_sub]
      exact Ideal.exp_coe _
    rw [EReal.coe_add, ← coe_finsetSum, e0]
    simp only [e1]

/-- The logarithm of a positive real is the real logarithm. -/
theorem log_coe_pos (S : ℝ) (hS : 0 < S) : Ideal.log (S : EReal) = ((Real.log S : ℝ) : EReal) := by
  rw [Ideal.log_coe, if_neg (not_le.mpr hS)]

/-! ### Subtracting in one step or in two -/

/-- For reals a, μ, l: (a - μ) - l = a - (μ + l). -/
theorem sub_sub_coe (a μ l : ℝ) :
    ((a : EReal) - (μ : EReal)) - (l : EReal) = (a : EReal) - ((μ : EReal) + (l : EReal)) := by
  rw [← EReal.coe_sub, ← EReal.coe_sub, ← EReal.coe_add, ← EReal.coe_sub, sub_sub]

/-! ### The row law -/

/-- THE ROW LAW: on a row of real scores the two ways of taking the log-softmax agree. -/
theorem rowKer_eq_rowRef (s : Fin 128 → EReal) (hs : ∀ r, IsReal (s r)) (k : Fin 129) :
    rowKer s k = rowRef s k := by
  obtain ⟨μ, hμ⟩ := isReal_max_fold_zero s hs
  choose σ hσ using hs
  obtain ⟨S, hS, hsum⟩ := sumExp_real σ μ
  have hsum' : Ideal.exp (0 - (μ : EReal)) + ∑ r : Fin 128, Ideal.exp (s r - μ) = (S : EReal) := by
    simp only [hσ]
    exact hsum
  dsimp only [rowKer, rowRef]
  rw [refMax_eq s, sum_withZero s, zero_add, hμ, hsum', log_coe_pos S hS]
  unfold withZero
  split_ifs with h
  · rw [← EReal.coe_zero]
    exact (sub_sub_coe 0 μ _).symm
  · rw [hσ]
    exact (sub_sub_coe _ μ _).symm

end Cert.PairScores

end
-- ==== Proof.FiniteArgs.lean ====
/-
  From the printed precondition "every float input is finite" to "every entry of every argument is a real
  number", at the ideal instance (floats as extended reals).

  The precondition computes, per argument `x`, the conjunction over all entries of `|x i| < +∞`
  (`|x| = max x (-x)`, the comparison the strict order of the extended reals, `+∞ = ⊤`), and joins the six
  results by `and`. An extended real whose absolute value is strictly below `⊤` is neither `⊥` nor `⊤`,
  hence the image of a real.
-/
import proofs.«159628_j91199335563522_2_alg».proof.Pre_finite_inputs
import proofs.«159628_j91199335563522_2_alg».proof.Proof.Gen.Pre_finite_inputs
import Idealize.ShloMosaic.PureOps.Ideal
import Idealize.ShloMosaic.Lib.ValueIdx
import Idealize.ShloMosaic.Lib.ReduceAll

noncomputable section

namespace Cert.FiniteArgs

open Idealize.ShloMosaic Cert.Pre_finite_inputs

/-- The rank-0 shape has exactly one index. -/
instance : Subsingleton S_.Idx := ⟨fun a b => funext fun d => d.elim0⟩

/-- The bit pattern `0x7F800000` denotes `+∞`. -/
theorem inf_eq_top : Ideal.ofBits .f32 0x7F800000#32 = (⊤ : EReal) := by
  simp [Ideal.ofBits, Ideal.ieee]

/-- The element fact: if `|x| < +∞` holds as a comparison of extended reals (`|x| = max x (-x)`), then `x` is a real.
    `⊤` fails `x < ⊤`, `⊥` fails `-x < ⊤` since `-⊥ = ⊤`. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [inf_eq_top] at h
  have hlt : max x (-x) < (⊤ : EReal) := by
    by_contra hn
    simp [Ideal.cmp, hn] at h
  rw [max_lt_iff] at hlt
  obtain ⟨h1, h2⟩ := hlt
  induction x using EReal.rec with
  | bot => simp at h2
  | coe r => exact ⟨r, rfl⟩
  | top => simp at h1

/-- One argument: if the conjunction over all entries of `|a i| < +∞` is true, every entry of `a` is a real. -/
theorem all_real {s : Shape} {axes : List (Fin s.rank)} (hb : S_.BroadcastsInDim s (![] : Fin 0 → Fin s.rank))
    (hr : s.ReducesTo axes S_) (hu : 0 < S_.numel) (a : FVec Ideal s .f32)
    (h : Host.reduce IntOp.andi
        (cmpf .olt (Host.absf a) (broadcastInDim s ![] hb (constant S_ .f32 0x7F800000#32)))
        (constantI S_ 1 1#1) hr hu ValueIdx.ix0 = 1#1) :
    ∀ i, ∃ r : ℝ, a i = (r : EReal) := by
  intro i
  exact real_of_abs_lt_inf (a i) (Host.reduce_andi_all _ _ hr hu _ h i)

/-- The precondition, read back: each of the six arguments has only real entries. -/
theorem args_real [Cert.Pre_finite_inputs.Facts]
    (a0 a1 : FVec Ideal S96x16x512 .f32) (a2 : FVec Ideal S512x1024 .f32)
    (a3 : FVec Ideal S512 .f32) (a4 : FVec Ideal S128x512 .f32) (a5 : FVec Ideal S128 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ a0 e0, all_real _ _ _ a1 e1, all_real _ _ _ a2 e2, all_real _ _ _ a3 e3,
    all_real _ _ _ a4 e4, all_real _ _ _ a5 e5⟩

end Cert.FiniteArgs

end
-- ==== Proof.RefRun.lean ====
/-
  The reference program's run, stage by stage.

  The program is a straight line of 38 host operations.  Every weakly fair execution of it terminates with each buffer
  at the fold of the operations over the launch contents.  The fold is read here in four stretches — the two
  projections, their broadcast sum and the bias (13 operations); the clamp at zero (3); the scores with the zero score
  in front (7); the log-softmax (15) — each stretch taking the contents of the buffers it reads to the stage its last
  operation writes, and the arguments are written by no operation.
-/
import proofs.«159628_j91199335563522_2_alg».proof.Proof.RefRead
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The fold over two stretches is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons]; exact ih _

/-- The four stretches. -/
abbrev opsA : List (HloOp τ sig (Elt F)) := (ops (F := F)).take 13
abbrev opsR : List (HloOp τ sig (Elt F)) := ((ops (F := F)).drop 13).take 3
abbrev opsB : List (HloOp τ sig (Elt F)) := ((ops (F := F)).drop 16).take 7
abbrev opsL : List (HloOp τ sig (Elt F)) := (ops (F := F)).drop 23

theorem ops_split : (ops (F := F)) = opsA ++ (opsR ++ (opsB ++ opsL)) := rfl

/-- The first stretch: the broadcast sum of the two projections and the bias. -/
theorem stretchA (W : Valuation τ sig (Elt F)) :
    after (opsA (F := F)) W (Proc.devRef .tc main_v12)
      = val_main_v12 (F := F) (W (Proc.devRef .tc main_arg0)) (W (Proc.devRef .tc main_arg1)) (W (Proc.devRef .tc main_arg2)) (W (Proc.devRef .tc main_arg3)) := by
  simp only [opsA, ops, List.take_succ_cons, List.take_zero]
  after_results
  rfl

/-- The first stretch writes neither weight argument of the scores. -/
theorem keepA4 (W : Valuation τ sig (Elt F)) :
    after (opsA (F := F)) W (Proc.devRef .tc main_arg4) = W (Proc.devRef .tc main_arg4) := by
  simp only [opsA, ops, List.take_succ_cons, List.take_zero]
  after_results
theorem keepA5 (W : Valuation τ sig (Elt F)) :
    after (opsA (F := F)) W (Proc.devRef .tc main_arg5) = W (Proc.devRef .tc main_arg5) := by
  simp only [opsA, ops, List.take_succ_cons, List.take_zero]
  after_results

/-- The second stretch: the clamp at zero of what the first left. -/
theorem stretchR (W : Valuation τ sig (Elt F)) (x0 x1 : (⟨S96x16x512, .f32⟩ : BufTy).Contents (Elt F))
    (x2 : (⟨S512x1024, .f32⟩ : BufTy).Contents (Elt F)) (x3 : (⟨S512, .f32⟩ : BufTy).Contents (Elt F))
    (h : W (Proc.devRef .tc main_v12) = val_main_v12 (F := F) x0 x1 x2 x3) :
    after (opsR (F := F)) W (Proc.devRef .tc main_v13) = val_main_v13 (F := F) x0 x1 x2 x3 := by
  simp only [opsR, ops, List.drop_succ_cons, List.drop_zero, List.take_succ_cons, List.take_zero]
  after_results
  rw [h]
  rfl
theorem keepR4 (W : Valuation τ sig (Elt F)) :
    after (opsR (F := F)) W (Proc.devRef .tc main_arg4) = W (Proc.devRef .tc main_arg4) := by
  simp only [opsR, ops, List.drop_succ_cons, List.drop_zero, List.take_succ_cons, List.take_zero]
  after_results
theorem keepR5 (W : Valuation τ sig (Elt F)) :
    after (opsR (F := F)) W (Proc.devRef .tc main_arg5) = W (Proc.devRef .tc main_arg5) := by
  simp only [opsR, ops, List.drop_succ_cons, List.drop_zero, List.take_succ_cons, List.take_zero]
  after_results

/-- The third stretch: the scores, with the zero score in front. -/
theorem stretchB (W : Valuation τ sig (Elt F)) (x0 x1 : (⟨S96x16x512, .f32⟩ : BufTy).Contents (Elt F))
    (x2 : (⟨S512x1024, .f32⟩ : BufTy).Contents (Elt F)) (x3 : (⟨S512, .f32⟩ : BufTy).Contents (Elt F))
    (x4 : (⟨S128x512, .f32⟩ : BufTy).Contents (Elt F)) (x5 : (⟨S128, .f32⟩ : BufTy).Contents (Elt F))
    (h13 : W (Proc.devRef .tc main_v13) = val_main_v13 (F := F) x0 x1 x2 x3)
    (h4 : W (Proc.devRef .tc main_arg4) = x4) (h5 : W (Proc.devRef .tc main_arg5) = x5) :
    after (opsB (F := F)) W (Proc.devRef .tc main_v19) = val_main_v19 (F := F) x0 x1 x2 x3 x4 x5 := by
  simp only [opsB, ops, List.drop_succ_cons, List.drop_zero, List.take_succ_cons, List.take_zero]
  after_results
  rw [h13, h4, h5]
  rfl

/-- The fourth stretch, the log-softmax of the rows, in four steps: the row maximum (5 operations), the shifted rows (3),
    the sum of exponentials (3), and the log subtracted (4). -/
abbrev opsL1 : List (HloOp τ sig (Elt F)) := ((ops (F := F)).drop 23).take 5
abbrev opsL2 : List (HloOp τ sig (Elt F)) := ((ops (F := F)).drop 28).take 3
abbrev opsL3 : List (HloOp τ sig (Elt F)) := ((ops (F := F)).drop 31).take 3
abbrev opsL4 : List (HloOp τ sig (Elt F)) := ((ops (F := F)).drop 34).take 4

theorem opsL_split : (opsL (F := F)) = opsL1 ++ (opsL2 ++ (opsL3 ++ opsL4)) := rfl

/-- A typed reference's two transports cancel. -/
theorem ofBuf_toBuf {T : BufTy} (x : TRef sig T) (v : T.Contents (Elt F)) : x.ofBuf (x.toBuf v) = v := by
  obtain ⟨r, rfl, _, _⟩ := x; rfl

/-- At the row buffer and at the row-maximum buffer the transport is the identity: the buffer's type is the value's. -/
theorem ofBuf_v19 (v : (⟨S96x16x96x129, .f32⟩ : BufTy).Contents (Elt F)) :
    (TRef.of (T := ⟨S96x16x96x129, .f32⟩) main_v19).ofBuf v = v := rfl
theorem toBuf_v2 (v : (⟨S96x16x96, .f32⟩ : BufTy).Contents (Elt F)) :
    (TRef.of (T := ⟨S96x16x96, .f32⟩) main_call1_v2).toBuf v = v := rfl

theorem stepL1 (W : Valuation τ sig (Elt F)) (x0 x1 : (⟨S96x16x512, .f32⟩ : BufTy).Contents (Elt F))
    (x2 : (⟨S512x1024, .f32⟩ : BufTy).Contents (Elt F)) (x3 : (⟨S512, .f32⟩ : BufTy).Contents (Elt F))
    (x4 : (⟨S128x512, .f32⟩ : BufTy).Contents (Elt F)) (x5 : (⟨S128, .f32⟩ : BufTy).Contents (Elt F))
    (h19 : W (Proc.devRef .tc main_v19) = val_main_v19 (F := F) x0 x1 x2 x3 x4 x5) :
    after (opsL1 (F := F)) W (Proc.devRef .tc main_call1_v2) = val_main_call1_v2 (F := F) x0 x1 x2 x3 x4 x5 := by
  simp only [opsL1, ops, List.drop_succ_cons, List.drop_zero, List.take_succ_cons, List.take_zero]
  after_results
  rw [h19]
  simp only [ofBuf_toBuf]
  rw [ofBuf_v19, toBuf_v2]
  rfl
theorem keepL1 (W : Valuation τ sig (Elt F)) :
    after (opsL1 (F := F)) W (Proc.devRef .tc main_v19) = W (Proc.devRef .tc main_v19) := by
  simp only [opsL1, ops, List.drop_succ_cons, List.drop_zero, List.take_succ_cons, List.take_zero]
  after_results

theorem stepL2 (W : Valuation τ sig (Elt F)) (x0 x1 : (⟨S96x16x512, .f32⟩ : BufTy).Contents (Elt F))
    (x2 : (⟨S512x1024, .f32⟩ : BufTy).Contents (Elt F)) (x3 : (⟨S512, .f32⟩ : BufTy).Contents (Elt F))
    (x4 : (⟨S128x512, .f32⟩ : BufTy).Contents (Elt F)) (x5 : (⟨S128, .f32⟩ : BufTy).Contents (Elt F))
    (h19 : W (Proc.devRef .tc main_v19) = val_main_v19 (F := F) x0 x1 x2 x3 x4 x5)
    (h2 : W (Proc.devRef .tc main_call1_v2) = val_main_call1_v2 (F := F) x0 x1 x2 x3 x4 x5) :
    after (opsL2 (F := F)) W (Proc.devRef .tc main_call1_v5) = val_main_call1_v5 (F := F) x0 x1 x2 x3 x4 x5 := by
  simp only [opsL2, ops, List.drop_succ_cons, List.drop_zero, List.take_succ_cons, List.take_zero]
  after_results
  rw [h19, h2]
  rfl

theorem stepL3 (W : Valuation τ sig (Elt F)) (x0 x1 : (⟨S96x16x512, .f32⟩ : BufTy).Contents (Elt F))
    (x2 : (⟨S512x1024, .f32⟩ : BufTy).Contents (Elt F)) (x3 : (⟨S512, .f32⟩ : BufTy).Contents (Elt F))
    (x4 : (⟨S128x512, .f32⟩ : BufTy).Contents (Elt F)) (x5 : (⟨S128, .f32⟩ : BufTy).Contents (Elt F))
    (h5 : W (Proc.devRef .tc main_call1_v5) = val_main_call1_v5 (F := F) x0 x1 x2 x3 x4 x5) :
    after (opsL3 (F := F)) W (Proc.devRef .tc main_call1_v7) = val_main_call1_v7 (F := F) x0 x1 x2 x3 x4 x5 := by
  simp only [opsL3, ops, List.drop_succ_cons, List.drop_zero, List.take_succ_cons, List.take_zero]
  after_results
  rw [h5]
  rfl
theorem keepL3 (W : Valuation τ sig (Elt F)) :
    after (opsL3 (F := F)) W (Proc.devRef .tc main_call1_v5) = W (Proc.devRef .tc main_call1_v5) := by
  simp only [opsL3, ops, List.drop_succ_cons, List.drop_zero, List.take_succ_cons, List.take_zero]
  after_results

theorem stepL4 (W : Valuation τ sig (Elt F)) (x0 x1 : (⟨S96x16x512, .f32⟩ : BufTy).Contents (Elt F))
    (x2 : (⟨S512x1024, .f32⟩ : BufTy).Contents (Elt F)) (x3 : (⟨S512, .f32⟩ : BufTy).Contents (Elt F))
    (x4 : (⟨S128x512, .f32⟩ : BufTy).Contents (Elt F)) (x5 : (⟨S128, .f32⟩ : BufTy).Contents (Elt F))
    (h5 : W (Proc.devRef .tc main_call1_v5) = val_main_call1_v5 (F := F) x0 x1 x2 x3 x4 x5)
    (h7 : W (Proc.devRef .tc main_call1_v7) = val_main_call1_v7 (F := F) x0 x1 x2 x3 x4 x5) :
    after (opsL4 (F := F)) W (Proc.devRef .tc main_v20) = val_main_v20 (F := F) x0 x1 x2 x3 x4 x5 := by
  simp only [opsL4, ops, List.drop_succ_cons, List.drop_zero, List.take_succ_cons, List.take_zero]
  after_results
  rw [h5, h7]
  rfl

theorem stretchL (W : Valuation τ sig (Elt F)) (x0 x1 : (⟨S96x16x512, .f32⟩ : BufTy).Contents (Elt F))
    (x2 : (⟨S512x1024, .f32⟩ : BufTy).Contents (Elt F)) (x3 : (⟨S512, .f32⟩ : BufTy).Contents (Elt F))
    (x4 : (⟨S128x512, .f32⟩ : BufTy).Contents (Elt F)) (x5 : (⟨S128, .f32⟩ : BufTy).Contents (Elt F))
    (h19 : W (Proc.devRef .tc main_v19) = val_main_v19 (F := F) x0 x1 x2 x3 x4 x5) :
    after (opsL (F := F)) W (Proc.devRef .tc main_v20) = val_main_v20 (F := F) x0 x1 x2 x3 x4 x5 := by
  rw [opsL_split, after_append, after_append, after_append]
  have e2 := stepL1 W x0 x1 x2 x3 x4 x5 h19
  have e5 := stepL2 (after opsL1 W) x0 x1 x2 x3 x4 x5 ((keepL1 W).trans h19) e2
  exact stepL4 _ x0 x1 x2 x3 x4 x5 ((keepL3 _).trans e5) (stepL3 _ x0 x1 x2 x3 x4 x5 e5)

/-- The whole fold at the result buffer is the last stage, of the launch contents of the arguments. -/
theorem result_eq (V : Valuation τ sig (Elt F)) :
    after (ops (F := F)) V (Proc.devRef .tc main_v20)
      = val_main_v20 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append]
  exact stretchL _ _ _ _ _ _ _ (stretchB _ _ _ _ _ _ _ (stretchR _ _ _ _ _ (stretchA V))
    ((keepR4 _).trans (keepA4 V)) ((keepR5 _).trans (keepA5 V)))

/-- No operation writes an argument. -/
theorem kept0 (V : Valuation τ sig (Elt F)) : after (ops (F := F)) V (Proc.devRef .tc main_arg0) = V (Proc.devRef .tc main_arg0) := by
  simp only [after_cons, after_nil]; rfl
theorem kept1 (V : Valuation τ sig (Elt F)) : after (ops (F := F)) V (Proc.devRef .tc main_arg1) = V (Proc.devRef .tc main_arg1) := by
  simp only [after_cons, after_nil]; rfl
theorem kept2 (V : Valuation τ sig (Elt F)) : after (ops (F := F)) V (Proc.devRef .tc main_arg2) = V (Proc.devRef .tc main_arg2) := by
  simp only [after_cons, after_nil]; rfl
theorem kept3 (V : Valuation τ sig (Elt F)) : after (ops (F := F)) V (Proc.devRef .tc main_arg3) = V (Proc.devRef .tc main_arg3) := by
  simp only [after_cons, after_nil]; rfl
theorem kept4 (V : Valuation τ sig (Elt F)) : after (ops (F := F)) V (Proc.devRef .tc main_arg4) = V (Proc.devRef .tc main_arg4) := by
  simp only [after_cons, after_nil]; rfl
theorem kept5 (V : Valuation τ sig (Elt F)) : after (ops (F := F)) V (Proc.devRef .tc main_arg5) = V (Proc.devRef .tc main_arg5) := by
  simp only [after_cons, after_nil]; rfl

/-- Every weakly fair execution of the reference terminates, nothing faulting, with the result buffer at the last stage
    of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = val_main_v20 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (result_eq _),
      (h c main_arg0).trans (kept0 _), (h c main_arg1).trans (kept1 _), (h c main_arg2).trans (kept2 _),
      (h c main_arg3).trans (kept3 _), (h c main_arg4).trans (kept4 _), (h c main_arg5).trans (kept5 _)⟩)
    (run_seq scopedRefs_eq scopedSems_eq defs main (fun _ => ops) main_eq (fun _ => ops_sub) m ρ)

end Cert.ReferenceIdeal.RefRun

end
-- ==== Proof.RefResult.lean ====
/-
  The reference program's stages, read one operation at a time, are the scores and their log-softmax
  against an extra zero score: stage by stage, at explicit coordinates,
    the two projections (dep, head), the hidden feature (hid), the score, the row with the zero score in
    front, the row's largest entry, and the log-softmax of the row.
-/
import proofs.«159628_j91199335563522_2_alg».proof.Proof.RefRead
import proofs.«159628_j91199335563522_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefResult

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-! ### The two projections -/

/-- The dependents' projection: the dot product with the left half of the weight's columns. -/
theorem v1_at (x0 : (⟨S96x16x512, .f32⟩ : BufTy).Contents (Elt Ideal)) (x2 : (⟨S512x1024, .f32⟩ : BufTy).Contents (Elt Ideal)) (d : Fin 96) (b : Fin 16) (e : Fin 512) :
    val_main_v1 (F := Ideal) x0 x2 (ix3 d b e) = Cert.PairScores.dep x0 x2 d b e := by
  rw [val_main_v1_apply]
  unfold Cert.PairScores.dep
  refine Finset.sum_congr rfl fun i _ => ?_
  rw [val_main_v0_apply]
  have e1 : lidx_main_v1 (ix3 d b e) i = ix3 d b i := funext fun a => Fin.ext (by
    match a with
    | ⟨0, _⟩ => rfl
    | ⟨1, _⟩ => rfl
    | ⟨2, _⟩ => rfl)
  have e2 : idx_main_v0 (ridx_main_v1 (ix3 d b e) i) = ix2 e (Cert.PairScores.colL i) := funext fun a => Fin.ext (by
    match a with
    | ⟨0, _⟩ => rfl
    | ⟨1, _⟩ => rfl)
  rw [e1, e2]

/-- The heads' projection: the dot product with the right half of the weight's columns. -/
theorem v3_at (x1 : (⟨S96x16x512, .f32⟩ : BufTy).Contents (Elt Ideal)) (x2 : (⟨S512x1024, .f32⟩ : BufTy).Contents (Elt Ideal)) (h : Fin 96) (b : Fin 16) (e : Fin 512) :
    val_main_v3 (F := Ideal) x1 x2 (ix3 h b e) = Cert.PairScores.head x1 x2 h b e := by
  rw [val_main_v3_apply]
  unfold Cert.PairScores.head
  refine Finset.sum_congr rfl fun i _ => ?_
  rw [val_main_v2_apply]
  have e1 : lidx_main_v3 (ix3 h b e) i = ix3 h b i := funext fun a => Fin.ext (by
    match a with
    | ⟨0, _⟩ => rfl
    | ⟨1, _⟩ => rfl
    | ⟨2, _⟩ => rfl)
  have e2 : idx_main_v2 (ridx_main_v3 (ix3 h b e) i) = ix2 e (Cert.PairScores.colR i) := funext fun a => Fin.ext (by
    match a with
    | ⟨0, _⟩ => rfl
    | ⟨1, _⟩ => rfl)
  rw [e1, e2]

/-! ### The hidden feature -/

/-- The hidden feature: the two projections broadcast over the pair, added, the bias added, clamped at 0. -/
theorem v13_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (d : Fin 96) (b : Fin 16) (h : Fin 96) (e : Fin 512) :
    val_main_v13 (F := Ideal) x0 x1 x2 x3 (ix4 d b h e) = Cert.PairScores.hid x0 x1 x2 x3 d b h e := by
  rw [val_main_v13_apply, val_main_v12_apply, val_main_v9_apply, val_main_v7_apply, val_main_v4_apply,
    val_main_v8_apply, val_main_v6_apply, val_main_v5_apply, val_main_v11_apply, val_main_v10_apply,
    val_main_call0_v0_apply, val_main_call0_cst_apply]
  have e1 : idx_main_v4 (idx_main_v7 (ix4 d b h e)) = ix3 d b e := funext fun a => Fin.ext (by
    match a with
    | ⟨0, _⟩ => rfl
    | ⟨1, _⟩ => rfl
    | ⟨2, _⟩ => rfl)
  have e2 : idx_main_v5 (idx_main_v6 (idx_main_v8 (ix4 d b h e))) = ix3 h b e := funext fun a => Fin.ext (by
    match a with
    | ⟨0, _⟩ => rfl
    | ⟨1, _⟩ => rfl
    | ⟨2, _⟩ => rfl)
  have e3 : idx_main_v10 (idx_main_v11 (ix4 d b h e)) = ix1 e := funext fun a => Fin.ext (by
    match a with
    | ⟨0, _⟩ => rfl)
  rw [e1, e2, e3, v1_at, v3_at]
  simp only [Ideal.addf_def, Ideal.maximumf_def, Ideal.ofBits_def, Ideal.ofBits_zero_f32]
  rfl

/-! ### The score -/

/-- The score: the hidden feature's dot product with the relation's weights, plus the relation's bias. -/
theorem v17_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) (r : Fin 128) :
    val_main_v17 (F := Ideal) x0 x1 x2 x3 x4 x5 (ix4 d b h r) = Cert.PairScores.score x0 x1 x2 x3 x4 x5 d b h r := by
  rw [val_main_v17_apply, val_main_v14_apply, val_main_v16_apply, val_main_v15_apply]
  have e3 : idx_main_v15 (idx_main_v16 (ix4 d b h r)) = ix1 r := funext fun a => Fin.ext (by
    match a with
    | ⟨0, _⟩ => rfl)
  rw [e3]
  unfold Cert.PairScores.score
  simp only [Ideal.addf_def]
  refine congrArg (· + x5 (ix1 r)) (Finset.sum_congr rfl fun e _ => ?_)
  have e1 : lidx_main_v14 (ix4 d b h r) e = ix4 d b h e := funext fun a => Fin.ext (by
    match a with
    | ⟨0, _⟩ => rfl
    | ⟨1, _⟩ => rfl
    | ⟨2, _⟩ => rfl
    | ⟨3, _⟩ => rfl)
  have e2 : ridx_main_v14 (ix4 d b h r) e = ix2 r e := funext fun a => Fin.ext (by
    match a with
    | ⟨0, _⟩ => rfl
    | ⟨1, _⟩ => rfl)
  rw [e1, e2, v13_at]

/-! ### The row with the zero score in front -/

/-- The concatenation of the zero column and the 128 scores along the last axis is the row "0 followed by the scores". -/
theorem v19_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) (k : Fin 129) :
    val_main_v19 (F := Ideal) x0 x1 x2 x3 x4 x5 (ix4 d b h k)
      = Cert.PairScores.withZero (Cert.PairScores.score x0 x1 x2 x3 x4 x5 d b h) k := by
  unfold val_main_v19 Cert.PairScores.withZero
  by_cases hk : k.val = 0
  · rw [dif_pos hk]
    rw [concatenate_pair_apply_left (t := S96x16x96x129) (s₁ := S96x16x96x1) (s₂ := S96x16x96x128) (3 : Fin S96x16x96x129.rank) _ _ _
      (ix4 d b h k) rfl (ix4 d b h (0 : Fin 1) : S96x16x96x1.Idx) (fun c => by
      match c with
      | ⟨0, _⟩ => rfl
      | ⟨1, _⟩ => rfl
      | ⟨2, _⟩ => rfl
      | ⟨3, _⟩ => show (0 : Nat) = k.val; exact hk.symm)]
    rw [val_main_v18_apply, val_main_cst_apply]
    simp only [Ideal.ofBits_def, Ideal.ofBits_zero_f32]
  · rw [dif_neg hk]
    have hlt : k.val - 1 < 128 := by have := k.isLt; omega
    rw [concatenate_pair_apply_right (t := S96x16x96x129) (s₁ := S96x16x96x1) (s₂ := S96x16x96x128) (3 : Fin S96x16x96x129.rank) _ _ _
      (ix4 d b h k) rfl rfl (ix4 d b h (⟨k.val - 1, hlt⟩ : Fin 128) : S96x16x96x128.Idx) (fun c hc => by
        match c, hc with
        | ⟨0, _⟩, _ => rfl
        | ⟨1, _⟩, _ => rfl
        | ⟨2, _⟩, _ => rfl
        | ⟨3, _⟩, hc => exact absurd rfl hc) (by show k.val - 1 + 1 = k.val; omega)]
    exact v17_at x0 x1 x2 x3 x4 x5 d b h ⟨k.val - 1, hlt⟩

/-! ### The largest entry of the row -/

/-- The word 0xFF800000 is -inf. -/
theorem ofBits_ninf_f32 : Ideal.ofBits .f32 0xFF800000#32 = (⊥ : EReal) := by
  simp [Ideal.ofBits, Ideal.ieee]

/-- Dropping the last axis of a [96, 16, 96, 129] array leaves a [96, 16, 96] array. -/
theorem reduces_row : S96x16x96x129.Reduces [3] S96x16x96 := by decide

/-- Inserting the coordinate k on the dropped axis of (d, b, h) gives (d, b, h, k). -/
theorem lift_row (hR : S96x16x96x129.Reduces [3] S96x16x96) (d : Fin 96) (b : Fin 16) (h : Fin 96) (k : Fin 129) :
    hR.lift (ix3 d b h) k = ix4 d b h k := funext fun a => Fin.ext (by
    match a with
    | ⟨0, _⟩ => rfl
    | ⟨1, _⟩ => rfl
    | ⟨2, _⟩ => rfl
    | ⟨3, _⟩ => rfl)

/-- The reduction with a maximum body over the last axis, from -inf, is the fold of max over the row. -/
theorem call1_v0_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) :
    val_main_call1_v0 (F := Ideal) x0 x1 x2 x3 x4 x5 (ix3 d b h)
      = (Finset.univ : Finset (Fin 129)).fold max (⊥ : EReal)
          (Cert.PairScores.withZero (Cert.PairScores.score x0 x1 x2 x3 x4 x5 d b h)) := by
  unfold val_main_call1_v0
  rw [Host.reduce_eq_fold_single FloatOps.maximumf _ _ reducesTo_S96x16x96x129_S96x16x96_d3 reduces_row h_S_]
  have hf : (val_main_v19 (F := Ideal) x0 x1 x2 x3 x4 x5 ∘ reduces_row.lift (ix3 d b h))
      = Cert.PairScores.withZero (Cert.PairScores.score x0 x1 x2 x3 x4 x5 d b h) :=
    funext fun k =>
      (congrArg (val_main_v19 (F := Ideal) x0 x1 x2 x3 x4 x5) (lift_row reduces_row d b h k)).trans
        (v19_at x0 x1 x2 x3 x4 x5 d b h k)
  have hi : val_main_call1_cst (F := Ideal) (Shape.Idx.first h_S_) = (⊥ : EReal) := by
    rw [val_main_call1_cst_apply]
    simp only [Ideal.ofBits_def, ofBits_ninf_f32]
  rw [hi]
  exact congrArg (fun f => Finset.fold max (⊥ : EReal) f (Finset.univ : Finset (Fin 129))) hf

/-- The row's largest entry as the reference takes it: the fold, taken once more against -inf. -/
theorem call1_v2_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) :
    val_main_call1_v2 (F := Ideal) x0 x1 x2 x3 x4 x5 (ix3 d b h)
      = max (⊥ : EReal) ((Finset.univ : Finset (Fin 129)).fold max (⊥ : EReal)
          (Cert.PairScores.withZero (Cert.PairScores.score x0 x1 x2 x3 x4 x5 d b h))) := by
  rw [val_main_call1_v2_apply, val_main_call1_v1_apply, val_main_call1_cst_0_apply, call1_v0_at]
  simp only [Ideal.maximumf_def, Ideal.ofBits_def, ofBits_ninf_f32]

/-! ### The log-softmax of the row -/

/-- The row's largest entry, broadcast back along the row. -/
theorem call1_v4_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) (k : Fin 129) :
    val_main_call1_v4 (F := Ideal) x0 x1 x2 x3 x4 x5 (ix4 d b h k) = (max (⊥ : EReal) ((Finset.univ : Finset (Fin 129)).fold max (⊥ : EReal) (Cert.PairScores.withZero (Cert.PairScores.score x0 x1 x2 x3 x4 x5 d b h)))) := by
  rw [val_main_call1_v4_apply, val_main_call1_v3_apply]
  have e1 : idx_main_call1_v3 (idx_main_call1_v4 (ix4 d b h k)) = ix3 d b h := funext fun a => Fin.ext (by
    match a with
    | ⟨0, _⟩ => rfl
    | ⟨1, _⟩ => rfl
    | ⟨2, _⟩ => rfl)
  rw [e1, call1_v2_at]

/-- The row's entry less the largest entry. -/
theorem call1_v5_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) (k : Fin 129) :
    val_main_call1_v5 (F := Ideal) x0 x1 x2 x3 x4 x5 (ix4 d b h k)
      = Cert.PairScores.withZero (Cert.PairScores.score x0 x1 x2 x3 x4 x5 d b h) k - (max (⊥ : EReal) ((Finset.univ : Finset (Fin 129)).fold max (⊥ : EReal) (Cert.PairScores.withZero (Cert.PairScores.score x0 x1 x2 x3 x4 x5 d b h)))) := by
  rw [val_main_call1_v5_apply, v19_at, call1_v4_at]
  simp only [Ideal.subf_def]

/-- The sum, from 0, of the exponentials of the shifted entries. -/
theorem call1_v7_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) :
    val_main_call1_v7 (F := Ideal) x0 x1 x2 x3 x4 x5 (ix3 d b h)
      = 0 + ∑ j : Fin 129, Ideal.exp (Cert.PairScores.withZero (Cert.PairScores.score x0 x1 x2 x3 x4 x5 d b h) j - (max (⊥ : EReal) ((Finset.univ : Finset (Fin 129)).fold max (⊥ : EReal) (Cert.PairScores.withZero (Cert.PairScores.score x0 x1 x2 x3 x4 x5 d b h))))) := by
  rw [val_main_call1_v7_apply, val_main_call1_cst_1_apply]
  simp only [Ideal.ofBits_def, Ideal.ofBits_zero_f32]
  refine congrArg (0 + ·) (Finset.sum_congr rfl fun j _ => ?_)
  have e1 : idx_main_call1_v7 (ix3 d b h) j = ix4 d b h j := funext fun a => Fin.ext (by
    match a with
    | ⟨0, _⟩ => rfl
    | ⟨1, _⟩ => rfl
    | ⟨2, _⟩ => rfl
    | ⟨3, _⟩ => rfl)
  rw [e1, val_main_call1_v6_apply, call1_v5_at]
  simp only [Ideal.hostUnary_exp_def]

/-- The logarithm of that sum, broadcast back along the row. -/
theorem call1_v10_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) (k : Fin 129) :
    val_main_call1_v10 (F := Ideal) x0 x1 x2 x3 x4 x5 (ix4 d b h k)
      = Ideal.log (0 + ∑ j : Fin 129, Ideal.exp (Cert.PairScores.withZero (Cert.PairScores.score x0 x1 x2 x3 x4 x5 d b h) j - (max (⊥ : EReal) ((Finset.univ : Finset (Fin 129)).fold max (⊥ : EReal) (Cert.PairScores.withZero (Cert.PairScores.score x0 x1 x2 x3 x4 x5 d b h)))))) := by
  rw [val_main_call1_v10_apply, val_main_call1_v9_apply, val_main_call1_v8_apply]
  have e1 : idx_main_call1_v8 (idx_main_call1_v10 (ix4 d b h k)) = ix3 d b h := funext fun a => Fin.ext (by
    match a with
    | ⟨0, _⟩ => rfl
    | ⟨1, _⟩ => rfl
    | ⟨2, _⟩ => rfl)
  rw [e1, call1_v7_at]
  simp only [Ideal.hostUnary_log_def]

/-- The last stage at (d, b, h, k) is the reference's log-softmax of the row of scores at (d, b, h). -/
theorem v20_at (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) (d : Fin 96) (b : Fin 16) (h : Fin 96) (k : Fin 129) :
    val_main_v20 (F := Ideal) x0 x1 x2 x3 x4 x5 (ix4 d b h k) = Cert.PairScores.rowRef (Cert.PairScores.score x0 x1 x2 x3 x4 x5 d b h) k := by
  rw [val_main_v20_apply, call1_v5_at, call1_v10_at]
  simp only [Ideal.subf_def]
  rfl

/-! ### The reference's last stage is the result array -/

theorem ref_is_result (x0 x1 : (⟨S96x16x512, .f32⟩ : BufTy).Contents (Elt Ideal)) (x2 : (⟨S512x1024, .f32⟩ : BufTy).Contents (Elt Ideal)) (x3 : (⟨S512, .f32⟩ : BufTy).Contents (Elt Ideal)) (x4 : (⟨S128x512, .f32⟩ : BufTy).Contents (Elt Ideal)) (x5 : (⟨S128, .f32⟩ : BufTy).Contents (Elt Ideal)) :
    Cert.ReferenceIdeal.ReadP.val_main_v20 (F := Ideal) x0 x1 x2 x3 x4 x5 = Cert.PairScores.result x0 x1 x2 x3 x4 x5 := by
  funext i
  obtain ⟨d, b, h, k, rfl⟩ : ∃ (d : Fin 96) (b : Fin 16) (h : Fin 96) (k : Fin 129), i = ix4 d b h k :=
    ⟨i 0, i 1, i 2, i 3, eq_ix4 i⟩
  rw [v20_at]
  rfl

end Cert.ReferenceIdeal.RefResult

end
-- ==== Proof.Bridge.lean ====
/-
  The two programs compute one function.

  The kernel adds the bias to the dependents' projection before it meets the heads' projection, the reference after:
  (dep + bt) + head = (dep + head) + bt on the extended reals, where addition is commutative and associative.  So the kernel's
  scores are the reference's.  The kernel then takes the log-softmax against the zero score in one step, m + log (...)
  subtracted at once, and the reference in two; the two agree on rows of real numbers (the row law), and the scores are real
  because the inputs are finite: sums and products of reals, clamped at zero.
-/
import proofs.«159628_j91199335563522_2_alg».proof.Defs
import proofs.«159628_j91199335563522_2_alg».proof.Proof.KernelRun
import proofs.«159628_j91199335563522_2_alg».proof.Proof.Between
import proofs.«159628_j91199335563522_2_alg».proof.Proof.ScoreBody
import proofs.«159628_j91199335563522_2_alg».proof.Proof.ScoreValue
import proofs.«159628_j91199335563522_2_alg».proof.Proof.RowLaw
import proofs.«159628_j91199335563522_2_alg».proof.Proof.Gen.Kernel.Frame
import proofs.«159628_j91199335563522_2_alg».proof.Proof.Gen.KernelIdeal.Frame
import proofs.«159628_j91199335563522_2_alg».proof.Proof.Gen.ReferenceIdeal
import proofs.«159628_j91199335563522_2_alg».proof.Proof.Gen.Pre_finite_inputs
import proofs.«159628_j91199335563522_2_alg».proof.Proof.FiniteArgs
import proofs.«159628_j91199335563522_2_alg».proof.Proof.RefRun
import proofs.«159628_j91199335563522_2_alg».proof.Proof.RefResult

set_option maxRecDepth 16384

noncomputable section

open scoped BigOperators

namespace Cert.Proof.Bridge

open Idealize.ShloMosaic Idealize.ShloMosaic.TcCoe Idealize.ShloMosaic.ValueIdx Idealize.SL.Sem
open Cert.PairScores Cert.KernelIdeal.ScoreValue

/-- The kernel's score is the reference's: the bias moves across the heads' projection. -/
theorem kerScore_eq (a0 a1 : (⟨3, ![96, 16, 512]⟩ : Shape).Idx → EReal) (a2 : (⟨2, ![512, 1024]⟩ : Shape).Idx → EReal)
    (a3 : (⟨1, ![512]⟩ : Shape).Idx → EReal) (a4 : (⟨2, ![128, 512]⟩ : Shape).Idx → EReal) (a5 : (⟨1, ![128]⟩ : Shape).Idx → EReal)
    (d : Fin 96) (b : Fin 16) (h : Fin 96) (r : Fin 128) :
    kerScore (fun i => dep a0 a2 (i 0) (i 1) (i 2) + a3 (ix1 (i 2))) (fun i => head a1 a2 (i 1) (i 0) (i 2)) a4 a5 d b h r
      = score a0 a1 a2 a3 a4 a5 d b h r := by
  unfold kerScore score hid
  refine congrArg (· + a5 (ix1 r)) (Finset.sum_congr rfl fun e _ => ?_)
  show max (dep a0 a2 d b e + a3 (ix1 e) + head a1 a2 h b e) 0 * a4 (ix2 r e)
    = max (dep a0 a2 d b e + head a1 a2 h b e + a3 (ix1 e)) 0 * a4 (ix2 r e)
  rw [add_right_comm]

/-- On real inputs the kernel's result array is the reference's. -/
theorem kerResult_eq (a0 a1 : (⟨3, ![96, 16, 512]⟩ : Shape).Idx → EReal) (a2 : (⟨2, ![512, 1024]⟩ : Shape).Idx → EReal)
    (a3 : (⟨1, ![512]⟩ : Shape).Idx → EReal) (a4 : (⟨2, ![128, 512]⟩ : Shape).Idx → EReal) (a5 : (⟨1, ![128]⟩ : Shape).Idx → EReal)
    (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) :
    kerResult (fun i => dep a0 a2 (i 0) (i 1) (i 2) + a3 (ix1 (i 2))) (fun i => head a1 a2 (i 1) (i 0) (i 2)) a4 a5
      = result a0 a1 a2 a3 a4 a5 := by
  funext i
  unfold kerResult result
  rw [show kerScore (fun i => dep a0 a2 (i 0) (i 1) (i 2) + a3 (ix1 (i 2))) (fun i => head a1 a2 (i 1) (i 0) (i 2)) a4 a5 (i 0) (i 1) (i 2)
      = score a0 a1 a2 a3 a4 a5 (i 0) (i 1) (i 2) from funext fun r => kerScore_eq a0 a1 a2 a3 a4 a5 (i 0) (i 1) (i 2) r]
  exact rowKer_eq_rowRef _ (fun r => score_isReal a0 a1 a2 a3 a4 a5 h0 h1 h2 h3 h4 h5 (i 0) (i 1) (i 2) r) (i 3)

end Cert.Proof.Bridge

/-! ## The claims -/

namespace Cert.Proof.Claims

open Idealize.ShloMosaic Idealize.ShloMosaic.TcCoe Idealize.ShloMosaic.ValueIdx Idealize.SL.Sem
open Cert.PairScores

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The block fact the scoring region's array is assembled from, in the form that assembly takes it. -/
theorem hblock (c : Dev Cert.KernelIdeal.nD) (i : Cert.KernelIdeal.grid1.Coords)
    (arg2 : Memref Cert.KernelIdeal.sig .tc .vmem Cert.KernelIdeal.S16x16x512 .f32) (harg2 : arg2.IsWhole)
    (arg3 : Memref Cert.KernelIdeal.sig .tc .vmem Cert.KernelIdeal.S16x16x512 .f32) (harg3 : arg3.IsWhole)
    (arg4 : Memref Cert.KernelIdeal.sig .tc .vmem Cert.KernelIdeal.S128x512 .f32) (harg4 : arg4.IsWhole)
    (arg5 : Memref Cert.KernelIdeal.sig .tc .vmem Cert.KernelIdeal.S128 .f32) (harg5 : arg5.IsWhole)
    (arg6 : Memref Cert.KernelIdeal.sig .tc .vmem Cert.KernelIdeal.S16x16x16x129 .f32) (harg6 : arg6.IsWhole)
    (x0 x1 : Vec Ideal Cert.KernelIdeal.S16x16x512 .f32) (x2 : Vec Ideal Cert.KernelIdeal.S128x512 .f32)
    (x3 : Vec Ideal Cert.KernelIdeal.S128 .f32) (dd b hh : Fin 16) (k : Fin 129) :
    Cert.KernelIdeal.Gen.out1_A_4 (F := Ideal) c i arg2 harg2 arg3 harg3 arg4 harg4 arg5 harg5 arg6 harg6 x0 x1 x2 x3 (ix4 dd b hh k)
      = rowKer (fun r => (∑ e : Fin 512, max (x0 (ix3 dd b e) + x1 (ix3 b hh e)) 0 * x2 (ix2 r e)) + x3 (ix1 r)) k :=
  Cert.KernelIdeal.ScoreBody.block_apply c i arg2 harg2 arg3 harg3 arg4 harg4 arg5 harg5 arg6 harg6 x0 x1 x2 x3 dd b hh k

/-- From memories agreeing on the arguments both programs run, and the kernel's result array — the scoring region's
    output, the kernel's row form of the scores — is the reference's: the scores agree, and on rows of real numbers so do
    the two ways of taking the log-softmax. The arguments are real because they are finite. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.RunValue.run_result (F := Ideal) m ρ)
    obtain ⟨h0, h1, h2, h3, h4, h5⟩ := Cert.FiniteArgs.args_real _ _ _ _ _ _ (hpre c)
    rw [Cert.KernelIdeal.ScoreValue.final (Cert.KernelIdeal.Gen.V3 m ρ) hblock c,
      Cert.KernelIdeal.Between.dep_found m ρ c, Cert.KernelIdeal.Between.head_found m ρ c,
      Cert.KernelIdeal.Between.wp_found m ρ c, Cert.KernelIdeal.Between.bp_found m ρ c]
    exact Cert.Proof.Bridge.kerResult_eq _ _ _ _ _ _ h0 h1 h2 h3 h4 h5
  · refine (θ_run Cert.ReferenceIdeal.defs _ _).mono (fun _ h c => ⟨?_, (h c).2⟩)
      (Cert.ReferenceIdeal.RefRun.run (F := Ideal) m' ρ')
    rw [(h c).1, Cert.ReferenceIdeal.RefResult.ref_is_result, (hagree c).1, (hagree c).2.1, (hagree c).2.2.1,
      (hagree c).2.2.2.1, (hagree c).2.2.2.2.1, (hagree c).2.2.2.2.2]

end Cert.Proof.Claims

end
-- ==== Proof.lean ====
/-
  Pairwise relation scores, log-softmaxed against a zero score: the kernel and its reference are one function.

  For dependents d, batches b, heads h and relations r the score is
      (sum over e of max (dep (d, b, e) + head (h, b, e) + bt e) 0 * Wp (r, e)) + bp r,
  dep and head the two inputs projected by the two halves of the weight's columns, and the result at (d, b, h, ·) is the
  log-softmax of the 129-entry row 0, score 0, …, score 127.

  The kernel projects both inputs in one gridded product — the dependents' rows stacked above the heads' rows, the two halves of
  the weight stacked as two planes — adds the bias to the dependents' half, and in a second gridded region forms the scores of a
  16 × 16 × 16 block of (d, b, h) and writes -lse into column 0 and score - lse into the other 128, lse = m + log (exp (0 - m) +
  sum of exp (score - m)), m the largest of the scores and 0.  The reference forms the same sums in another grouping, puts the
  zero score in front, and subtracts the row maximum and then the log of the sum of exponentials.

  At the ideal values a product into a zero accumulator and the host's general dot product are the same sums, the two
  groupings of the three-term sum agree because addition of extended reals is commutative and associative, and the two
  log-softmax forms agree on rows of real numbers — which the scores are, the inputs being finite.  The frames of the two
  kernel programs are the generated ones; the reference's frame is its run with the result dropped; the idealization
  rewrote nothing.
-/
import proofs.«159628_j91199335563522_2_alg».proof.Defs
import proofs.«159628_j91199335563522_2_alg».proof.Proof.Gen.Kernel
import proofs.«159628_j91199335563522_2_alg».proof.Proof.Gen.Kernel.Skeleton
import proofs.«159628_j91199335563522_2_alg».proof.Proof.Gen.Kernel.Launch
import proofs.«159628_j91199335563522_2_alg».proof.Proof.Gen.Kernel.Points
import proofs.«159628_j91199335563522_2_alg».proof.Proof.Gen.Kernel.Frame
import proofs.«159628_j91199335563522_2_alg».proof.Proof.Gen.KernelIdeal
import proofs.«159628_j91199335563522_2_alg».proof.Proof.Gen.KernelIdeal.Skeleton
import proofs.«159628_j91199335563522_2_alg».proof.Proof.Gen.KernelIdeal.Launch
import proofs.«159628_j91199335563522_2_alg».proof.Proof.Gen.KernelIdeal.Points
import proofs.«159628_j91199335563522_2_alg».proof.Proof.Gen.KernelIdeal.Frame
import proofs.«159628_j91199335563522_2_alg».proof.Proof.Gen.ReferenceIdeal
import proofs.«159628_j91199335563522_2_alg».proof.Proof.Gen.Pre_finite_inputs
import proofs.«159628_j91199335563522_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves,
  Cert.Proof.Claims.algebraic⟩

end Cert.Proof

end
